-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S32x16 .f32) (main_arg5 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x32 .f32) (main_arg3 : FVec F S32 .f32) (main_arg4 : FVec F S32x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x32 : Shape := ⟨2, ![1, 32]⟩
abbrev S1x16 : Shape := ⟨2, ![1, 16]⟩
abbrev S2x10000x16 : Shape := ⟨3, ![2, 10000, 16]⟩
abbrev S400x10000 : Shape := ⟨2, ![400, 10000]⟩
abbrev S1x400x16 : Shape := ⟨3, ![1, 400, 16]⟩
abbrev S10000x32 : Shape := ⟨2, ![10000, 32]⟩
abbrev S10000x16 : Shape := ⟨2, ![10000, 16]⟩
abbrev S400x32 : Shape := ⟨2, ![400, 32]⟩
abbrev S400x16 : Shape := ⟨2, ![400, 16]⟩
abbrev S400 : Shape := ⟨1, ![400]⟩
abbrev S400x1 : Shape := ⟨2, ![400, 1]⟩
abbrev S1x10000x16 : Shape := ⟨3, ![1, 10000, 16]⟩

abbrev nBuf : Space → Nat
  | .hbm => 11
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x32, .f32⟩
  | .hbm, ⟨7, _⟩ => ⟨S1x16, .f32⟩
  | .hbm, ⟨8, _⟩ => ⟨S2x10000x16, .f32⟩
  | .hbm, ⟨9, _⟩ => ⟨S1x10000x16, .f32⟩
  | .hbm, ⟨10, _⟩ => ⟨S10000x16, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x32, .f32⟩
  | .local _ .vmem, ⟨4, _⟩ => ⟨S1x32, .f32⟩
  | .local _ .vmem, ⟨5, _⟩ => ⟨S32x16, .f32⟩
  | .local _ .vmem, ⟨6, _⟩ => ⟨S1x16, .f32⟩
  | .local _ .vmem, ⟨7, _⟩ => ⟨S1x400x16, .f32⟩
  | .local _ .vmem, ⟨8, _⟩ => ⟨S1x400x16, .f32⟩
  | .local _ .vmem, ⟨9, _⟩ => ⟨S10000x32, .bf16⟩
  | .local _ .vmem, ⟨10, _⟩ => ⟨S10000x16, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v24 : BitVec 32 := Scalar.muli arg1 c400_i32
  let v25 : Index := Scalar.indexCast v24
  let c0_14 : Index := 0#32
  ![v25.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x400x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S32_S1x32 : S32.ShapeCasts S1x32
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  bitsLt_bf16_f32 : FTy.bits .bf16 < FTy.bits .f32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  packedbf16_S10000x32_S10000x32_0_0 : (Rect.unit (s := S10000x32) ![0, 0] S10000x32.size inb_S10000x32_S10000x32_0_0).PackedRows (EltTy.packing .bf16)
  inb_S400x10000_S400x10000_0_0 : ∀ a, (![0, 0] : Fin 2 → Nat) a + S400x10000.size a ≤ S400x10000.size a
  h_S400x10000 : 0 < S400x10000.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S32x16_S32x16_0_0 : ∀ a, (![0, 0] : Fin 2 → Nat) a + S32x16.size a ≤ S32x16.size a
  h_S32x16 : 0 < S32x16.numel
  h_S400x16 : 0 < S400x16.numel
  shapeCasts_S400x16_S400x16 : S400x16.ShapeCasts S400x16
  inb_S1x400x16_S1x400x16_0_0_0 : ∀ a, (![0, 0, 0] : Fin 3 → Nat) a + S1x400x16.size a ≤ S1x400x16.size a
  h_S1x400x16 : 0 < S1x400x16.numel
  shapeCasts_S1x400x16_S400x16 : S1x400x16.ShapeCasts S400x16
  shapeCasts_S400x16_S1x400x16 : S400x16.ShapeCasts S1x400x16
  inb_S10000x16_S10000x16_0_0 : ∀ a, (![0, 0] : Fin 2 → Nat) a + S10000x16.size a ≤ S10000x16.size a
  h_S10000x16 : 0 < S10000x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  reduces_S400x16_S400 : S400x16.Reduces [1] S400
  shapeCasts_S400_S400x1 : S400.ShapeCasts S400x1
  broadcasts_S400x1_S400x16 : S400x1.Broadcasts S400x16
  slices_S2x10000x16_S1x10000x16_1_0_0 : S2x10000x16.Slices ![1, 0, 0] S1x10000x16
  shapeCasts_S1x10000x16_S10000x16 : S1x10000x16.ShapeCasts S10000x16
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x16_S400x16_1_0_0_1_n_n_wf : DotDims.WF S400x32 S32x16 S400x16 [1] [0] [0] [1] [] []
  dot_S400x10000_S10000x16_S400x16_1_0_0_1_n_n_wf : DotDims.WF S400x10000 S10000x16 S400x16 [1] [0] [0] [1] [] []
  hrank0 : 0 < grid0.rank
  k0_off1_inb : ∀ i : grid0.Coords, ∀ (k0_h2 : k0_cond2 i = 1#1), ∀ a, (k0_off1 i) a + S400x16.size a ≤ S10000x16.size a
  k0_off1_packedbf16 : ∀ i : grid0.Coords, ∀ (k0_h2 : k0_cond2 i = 1#1), (Rect.unit (s := S10000x16) (k0_off1 i) S400x16.size (k0_off1_inb i k0_h2)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x16.size a ≤ S32x16.size a
  hwx0_4 : ∀ i : grid0.Coords, EltTy.bits .f32 = 32 ∨ (Rect.block (s := S32x16) S32x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x400x16.size a ≤ S2x10000x16.size a
  hwx0_6 : ∀ i : grid0.Coords, EltTy.bits .f32 = 32 ∨ (Rect.block (s := S2x10000x16) S1x400x16.size (cc0_transform_6 i) (hinb0_6 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x16_S400x16_1_0_0_1_n_n : DotDims S400x32 S32x16 S400x16 where
  lhsContracting := [1]
  rhsContracting := [0]
  lhsNonContracting := [0]
  rhsNonContracting := [1]
  lhsBatch := []
  rhsBatch := []
  wf := dot_S400x32_S32x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x400x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) && !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S10000x32 : Shape := ⟨2, ![10000, 32]⟩
abbrev S1x32 : Shape := ⟨2, ![1, 32]⟩
abbrev S_ : Shape := ⟨0, ![]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 37
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S10000x32, .f32⟩
  | .hbm, ⟨7, _⟩ => ⟨S10000x32, .f32⟩
  | .hbm, ⟨8, _⟩ => ⟨S1x32, .f32⟩
  | .hbm, ⟨9, _⟩ => ⟨S10000x32, .f32⟩
  | .hbm, ⟨10, _⟩ => ⟨S10000x32, .f32⟩
  | .hbm, ⟨11, _⟩ => ⟨S_, .f32⟩
  | .hbm, ⟨12, _⟩ => ⟨S10000x32, .f32⟩
  | .hbm, ⟨13, _⟩ => ⟨S10000x32, .f32⟩
  | .hbm, ⟨14, _⟩ => ⟨S10000x16, .f32⟩
  | .hbm, ⟨15, _⟩ => ⟨S10000x16, .f32⟩
  | .hbm, ⟨16, _⟩ => ⟨S1x16, .f32⟩
  | .hbm, ⟨17, _⟩ => ⟨S10000x16, .f32⟩
  | .hbm, ⟨18, _⟩ => ⟨S10000x16, .f32⟩
  | .hbm, ⟨19, _⟩ => ⟨S_, .f32⟩
  | .hbm, ⟨20, _⟩ => ⟨S10000x16, .f32⟩
  | .hbm, ⟨21, _⟩ => ⟨S10000x16, .f32⟩
  | .hbm, ⟨22, _⟩ => ⟨S_, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x16, .f32⟩
  | .hbm, ⟨29, _⟩ => ⟨S10000x16, .f32⟩
  | .hbm, ⟨30, _⟩ => ⟨S10000x16, .f32⟩
  | .hbm, ⟨31, _⟩ => ⟨S_, .f32⟩
  | .hbm, ⟨32, _⟩ => ⟨S10000, .f32⟩
  | .hbm, ⟨33, _⟩ => ⟨S10000x1, .f32⟩
  | .hbm, ⟨34, _⟩ => ⟨S10000x1, .f32⟩
  | .hbm, ⟨35, _⟩ => ⟨S10000x16, .f32⟩
  | .hbm, ⟨36, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩
abbrev main_call2_cst : Ref sig .tc := ⟨.hbm, 22, rfl⟩
abbrev main_call2_v0 : Ref sig .tc := ⟨.hbm, 23, rfl⟩
abbrev main_call2_cst_0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_v6 : Ref sig .tc := ⟨.hbm, 30, rfl⟩
abbrev main_call2_cst_1 : Ref sig .tc := ⟨.hbm, 31, rfl⟩
abbrev main_call2_v7 : Ref sig .tc := ⟨.hbm, 32, rfl⟩
abbrev main_call2_v8 : Ref sig .tc := ⟨.hbm, 33, rfl⟩
abbrev main_call2_v9 : Ref sig .tc := ⟨.hbm, 34, rfl⟩
abbrev main_call2_v10 : Ref sig .tc := ⟨.hbm, 35, rfl⟩
abbrev main_v12 : Ref sig .tc := ⟨.hbm, 36, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.KB.Base.lean ====
/-
  The grid of the fused two-layer kernel, point by point. The grid has 2 × 25 = 50 points, visited in order
  t = 25·p + r. The body has three conditionals on the coordinates: the first (p = 0 and r = 0) holds at point 0 only,
  the second (p = 0) at points 0 … 24, the third (p = 1) at points 25 … 49. At a point t < 25 the slice of the second
  scratch the body stores starts at row 400·t. No window is ever idle (the output block is stored at every point).
  Also here: each window's current staging buffer at a point, the two scratch buffers as whole memrefs, and the
  region's scoped rest spelt as those two buffers at some contents.
-/
import proofs.«128424_g90108413870386_cont_sun_c4_37_9_alg».proof.Proof.Gen.Kernel.Frame
import proofs.«128424_g90108413870386_cont_sun_c4_37_9_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional: phase 0 and row block 0. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)
/-- The second conditional: phase 0. -/
abbrev cond0_1 (i : grid0.Coords) : Prop := k0_cond2 i = 1#1
theorem hcond0_1 : ∀ t : Fin cfg0.N, cond0_1 (grid0.coords t) ↔ t.val < 25 :=
  (by decide +kernel : ∀ t : Fin grid0.N, cond0_1 (grid0.coords t) ↔ t.val < 25)
/-- The third conditional: phase 1. -/
abbrev cond0_2 (i : grid0.Coords) : Prop := k0_cond3 i = 1#1
theorem hcond0_2 : ∀ t : Fin cfg0.N, cond0_2 (grid0.coords t) ↔ 25 ≤ t.val :=
  (by decide +kernel : ∀ t : Fin grid0.N, cond0_2 (grid0.coords t) ↔ 25 ≤ t.val)

/-- In phase 0 the slice of the second scratch stored at point t starts at row 400·t, column 0. -/
theorem hoff1 : ∀ t : Fin cfg0.N, t.val < 25 → k0_off1 (grid0.coords t) = ![400 * t.val, 0] :=
  (by decide +kernel : ∀ t : Fin grid0.N, t.val < 25 → k0_off1 (grid0.coords t) = ![400 * t.val, 0])

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

/-- Each window's current staging memref at point t, as the pipeline passes it to the body, and its wholeness. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x400x16 .f32 := win0_6.stage (cfg0.slots t 6)
abbrev hs0_6 (t : Fin cfg0.N) : (ms0_6 t).IsWhole := hstage0_6 ((cfg0.slots t 6).cast nbuf0_6)
/-- The two scratch operands: whole scoped buffers, passed to the body beside the windows. -/
abbrev scM0_0 : Memref sig .tc .vmem S10000x32 .bf16 := Memref.whole cc0_scratch0
abbrev scM0_1 : Memref sig .tc .vmem S10000x16 .bf16 := Memref.whole cc0_scratch1

/-- What the launch hands the region besides the windows: the two scratch buffers at some contents and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KB.RunC.lean ====
/-
  The body at a point of phase 1 (points 25 … 49): only the third conditional is taken. The body loads the row block of
  the adjacency matrix, the whole second scratch, the second bias, and stores ONE piece covering the output block:
  the log-softmax rows computed from them. Nothing else is written; both scratch buffers are handed back as found.
-/
import proofs.«128424_g90108413870386_cont_sun_c4_37_9_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in phase 1, with the pieces it leaves in the output block's buffer as the witness. -/
noncomputable def kernelRun_C (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : ¬cond0_0 i) (hc1 : ¬cond0_1 i) (hc2 : cond0_2 i)
    (x0 : Vec F S10000x128 .f32) (x1 : Vec F S400x10000 .f32) (x2 : Vec F S128x32 .f32) (x3 : Vec F S1x32 .f32) (x4 : Vec F S32x16 .f32) (x5 : Vec F S1x16 .f32) (xs0 : Vec F S10000x32 .bf16) (xs1 : Vec F S10000x16 .bf16) :
    { LO : List (View.Piece (Elt F) S1x400x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ owns (c : Thread nD τ) arg9 fullShare xs0 ∗ owns (c : Thread nD τ) arg10 fullShare xs1) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    iexists _; isplitr; · ipureintro; exact harg10.read_unread _
    iexact HS1

end Cert.Kernel.Hand

end
-- ==== Proof.KB.RunB.lean ====
/-
  The body at a later point of phase 0 (points 1 … 24): only the second conditional is taken. The body loads the row
  block of the adjacency matrix, the whole first scratch (left by point 0), the first bias and the second weight matrix,
  computes the block z = max(adj·y + b1, 0)·W2, stores it (as bf16) into rows [400·r, 400·r + 400) of the second scratch —
  ONE piece, over whatever that scratch held — and stores it (as f32) over the whole output block.
-/
import proofs.«128424_g90108413870386_cont_sun_c4_37_9_alg».proof.Proof.KB.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at points 1 … 24, with the pieces it leaves in the output block's buffer and in the second scratch as
    the witnesses; the second scratch's earlier contents stay under the piece. -/
noncomputable def kernelRun_B (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : ¬cond0_0 i) (hc1 : cond0_1 i) (hc2 : ¬cond0_2 i)
    (x0 : Vec F S10000x128 .f32) (x1 : Vec F S400x10000 .f32) (x2 : Vec F S128x32 .f32) (x3 : Vec F S1x32 .f32) (x4 : Vec F S32x16 .f32) (x5 : Vec F S1x16 .f32) (xs0 : Vec F S10000x32 .bf16) :
    Σ' (LO : List (View.Piece (Elt F) S1x400x16 .f32)), { LS1 : List (View.Piece (Elt F) S10000x16 .bf16) //
      ∀ (xs1 : Vec F S10000x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ owns (c : Thread nD τ) arg9 fullShare xs0 ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, ?_, fun xs1 E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    iexact HS1

end Cert.Kernel.Hand

end
-- ==== Proof.KB.RunA.lean ====
/-
  The body at the grid's first point: the first and second conditionals are taken. The body first stores y = x·W1 (as
  bf16) over the WHOLE first scratch — one covering piece —, then reads it back and goes on as at the later points of
  phase 0: the block z = max(adj·y + b1, 0)·W2 into rows [0, 400) of the second scratch, over whatever it held, and over the
  whole output block.
-/
import proofs.«128424_g90108413870386_cont_sun_c4_37_9_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at point 0, with the pieces it leaves in the output block's buffer and in both scratch buffers as the
    witnesses; the second scratch's earlier contents stay under its piece. -/
noncomputable def kernelRun_A (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : cond0_0 i) (hc1 : cond0_1 i) (hc2 : ¬cond0_2 i)
    (x0 : Vec F S10000x128 .f32) (x1 : Vec F S400x10000 .f32) (x2 : Vec F S128x32 .f32) (x3 : Vec F S1x32 .f32) (x4 : Vec F S32x16 .f32) (x5 : Vec F S1x16 .f32) :
    Σ' (LO : List (View.Piece (Elt F) S1x400x16 .f32)), Σ' (LS0 : List (View.Piece (Elt F) S10000x32 .bf16)), { LS1 : List (View.Piece (Elt F) S10000x16 .bf16) //
      ∀ (xs1 : Vec F S10000x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, ?_, ?_, fun xs1 E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexact HS1

end Cert.Kernel.Hand

end
-- ==== Proof.KB.Pieces.lean ====
/-
  What the body's stores leave, read back as values. In every case the output block's buffer is covered by one piece,
  so it ends holding that piece's payload whatever it held: in phase 0 the block z = max(adj·y + b1, 0)·W2 of the row block
  (as f32), in phase 1 the log-softmax rows. At point 0 the first scratch is covered by one piece, y = x·W1. In phase 0 the
  second scratch gets one piece of 400 whole rows: a row inside the piece reads the piece's payload (z as bf16) at the
  row's position in the block, a row outside it reads what the scratch held before.
-/
import proofs.«128424_g90108413870386_cont_sun_c4_37_9_alg».proof.Proof.KB.RunA
import Idealize.ShloMosaic.Lib.Pipeline.Value
import Idealize.ShloMosaic.Lib.WritesUnit
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## Phase 1 -/

/-- In phase 1 the output block's buffer ends at the log-softmax rows of the loaded block, scratch and bias. -/
theorem outC_eq (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : ¬cond0_0 i) (hc1 : ¬cond0_1 i) (hc2 : cond0_2 i) (x0 : Vec F S10000x128 .f32) (x1 : Vec F S400x10000 .f32) (x2 : Vec F S128x32 .f32) (x3 : Vec F S1x32 .f32) (x4 : Vec F S32x16 .f32) (x5 : Vec F S1x16 .f32) (xs0 : Vec F S10000x32 .bf16) (xs1 : Vec F S10000x16 .bf16)
    (f : arg8.view.ty.Contents (Elt F)) :
    arg8.view.read (Elt F) (arg8.view.writes (Elt F) f (kernelRun_C c i arg2 harg2 arg3 harg3 arg4 harg4 arg5 harg5 arg6 harg6 arg7 harg7 arg8 harg8 arg9 harg9 arg10 harg10 hc0 hc1 hc2 x0 x1 x2 x3 x4 x5 xs0 xs1).1) = k0_pay5 x1 xs1 x5 := by
  rw [View.read_writes_eq_canon _ _ _ (View.cover_of_tiledL (kernelRun_C c i arg2 harg2 arg3 harg3 arg4 harg4 arg5 harg5 arg6 harg6 arg7 harg7 arg8 harg8 arg9 harg9 arg10 harg10 hc0 hc1 hc2 x0 x1 x2 x3 x4 x5 xs0 xs1).1 S1x400x16.size (by sl_kernel_rfl))]
  unfold kernelRun_C
  dsimp only
  rw [View.canon_unit_zero hz3]
  simp only [View.readAt_eq_ld, harg3.read_unread, harg10.read_unread, harg7.read_unread, View.ld_unit_zero (S := S400x10000) hz2, View.ld_unit_zero (S := S10000x16) hz2, View.ld_unit_zero (S := S1x16) hz2]

/-! ## Phase 0, points 1 … 24 -/

/-- At a later point of phase 0 the output block's buffer ends at the block z (as f32). -/
theorem outB_eq (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : ¬cond0_0 i) (hc1 : cond0_1 i) (hc2 : ¬cond0_2 i) (x0 : Vec F S10000x128 .f32) (x1 : Vec F S400x10000 .f32) (x2 : Vec F S128x32 .f32) (x3 : Vec F S1x32 .f32) (x4 : Vec F S32x16 .f32) (x5 : Vec F S1x16 .f32) (xs0 : Vec F S10000x32 .bf16)
    (f : arg8.view.ty.Contents (Elt F)) :
    arg8.view.read (Elt F) (arg8.view.writes (Elt F) f (kernelRun_B c i arg2 harg2 arg3 harg3 arg4 harg4 arg5 harg5 arg6 harg6 arg7 harg7 arg8 harg8 arg9 harg9 arg10 harg10 hc0 hc1 hc2 x0 x1 x2 x3 x4 x5 xs0).1) = k0_pay4 x1 xs0 x3 x4 := by
  rw [View.read_writes_eq_canon _ _ _ (View.cover_of_tiledL (kernelRun_B c i arg2 harg2 arg3 harg3 arg4 harg4 arg5 harg5 arg6 harg6 arg7 harg7 arg8 harg8 arg9 harg9 arg10 harg10 hc0 hc1 hc2 x0 x1 x2 x3 x4 x5 xs0).1 S1x400x16.size (by sl_kernel_rfl))]
  unfold kernelRun_B
  dsimp only
  rw [View.canon_unit_zero hz3]
  simp only [View.readAt_eq_ld, harg3.read_unread, harg9.read_unread, harg5.read_unread, harg6.read_unread, View.ld_unit_zero (S := S400x10000) hz2, View.ld_unit_zero (S := S10000x32) hz2, View.ld_unit_zero (S := S1x32) hz2, View.ld_unit_zero (S := S32x16) hz2]

/-- A row of the second scratch inside the slice stored at this point reads the block z (as bf16) at its position. -/
theorem s1B_in (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : ¬cond0_0 i) (hc1 : cond0_1 i) (hc2 : ¬cond0_2 i) (x0 : Vec F S10000x128 .f32) (x1 : Vec F S400x10000 .f32) (x2 : Vec F S128x32 .f32) (x3 : Vec F S1x32 .f32) (x4 : Vec F S32x16 .f32) (x5 : Vec F S1x16 .f32) (xs0 : Vec F S10000x32 .bf16)
    (xs1 : Vec F S10000x16 .bf16) (o : ℕ) (ho : k0_off1 i = ![o, 0]) (y : S10000x16.Idx) (p : Fin 400) (q : Fin 16)
    (hy0 : (y 0).val = o + p.val) (hy1 : (y 1).val = q.val) :
    arg10.view.read (Elt F) (arg10.view.writes (Elt F) (harg10.unread xs1) (kernelRun_B c i arg2 harg2 arg3 harg3 arg4 harg4 arg5 harg5 arg6 harg6 arg7 harg7 arg8 harg8 arg9 harg9 arg10 harg10 hc0 hc1 hc2 x0 x1 x2 x3 x4 x5 xs0).2.1) y
      = k0_pay3 x1 xs0 x3 x4 (ValueIdx.ix2 p q) := by
  unfold kernelRun_B
  dsimp only
  refine (View.read_writes_cons_rows_of_mem arg10.view (harg10.unread xs1) _ _ [] y (ValueIdx.ix2 p q) ho hy0 hy1).trans ?_
  simp only [View.readAt_eq_ld, harg3.read_unread, harg9.read_unread, harg5.read_unread, harg6.read_unread, View.ld_unit_zero (S := S400x10000) hz2, View.ld_unit_zero (S := S10000x32) hz2, View.ld_unit_zero (S := S1x32) hz2, View.ld_unit_zero (S := S32x16) hz2]

/-- A row of the second scratch outside the slice stored at this point keeps what the scratch held. -/
theorem s1B_out (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : ¬cond0_0 i) (hc1 : cond0_1 i) (hc2 : ¬cond0_2 i) (x0 : Vec F S10000x128 .f32) (x1 : Vec F S400x10000 .f32) (x2 : Vec F S128x32 .f32) (x3 : Vec F S1x32 .f32) (x4 : Vec F S32x16 .f32) (x5 : Vec F S1x16 .f32) (xs0 : Vec F S10000x32 .bf16)
    (xs1 : Vec F S10000x16 .bf16) (o : ℕ) (ho : k0_off1 i = ![o, 0]) (y : S10000x16.Idx)
    (hy : (y 0).val < o ∨ o + 400 ≤ (y 0).val) :
    arg10.view.read (Elt F) (arg10.view.writes (Elt F) (harg10.unread xs1) (kernelRun_B c i arg2 harg2 arg3 harg3 arg4 harg4 arg5 harg5 arg6 harg6 arg7 harg7 arg8 harg8 arg9 harg9 arg10 harg10 hc0 hc1 hc2 x0 x1 x2 x3 x4 x5 xs0).2.1) y = xs1 y := by
  unfold kernelRun_B
  dsimp only
  refine (View.read_writes_cons_rows_of_not_mem (W := 400) arg10.view (harg10.unread xs1) _ _ [] y ho rfl hy).trans ?_
  rw [View.writes_nil, harg10.read_unread]

/-! ## Point 0 -/

/-- At point 0 the first scratch ends at y = x·W1 (as bf16), whatever it held. -/
theorem s0A_eq (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : cond0_0 i) (hc1 : cond0_1 i) (hc2 : ¬cond0_2 i) (x0 : Vec F S10000x128 .f32) (x1 : Vec F S400x10000 .f32) (x2 : Vec F S128x32 .f32) (x3 : Vec F S1x32 .f32) (x4 : Vec F S32x16 .f32) (x5 : Vec F S1x16 .f32)
    (f : arg9.view.ty.Contents (Elt F)) :
    arg9.view.read (Elt F) (arg9.view.writes (Elt F) f (kernelRun_A c i arg2 harg2 arg3 harg3 arg4 harg4 arg5 harg5 arg6 harg6 arg7 harg7 arg8 harg8 arg9 harg9 arg10 harg10 hc0 hc1 hc2 x0 x1 x2 x3 x4 x5).2.1) = k0_pay1 x0 x2 := by
  rw [View.read_writes_eq_canon _ _ _ (View.cover_of_tiledL (kernelRun_A c i arg2 harg2 arg3 harg3 arg4 harg4 arg5 harg5 arg6 harg6 arg7 harg7 arg8 harg8 arg9 harg9 arg10 harg10 hc0 hc1 hc2 x0 x1 x2 x3 x4 x5).2.1 S10000x32.size (by sl_kernel_rfl))]
  unfold kernelRun_A
  dsimp only
  sl_unfold_words
  rw [View.canon_unit_zero hz2]
  simp only [View.readAt_eq_ld, harg2.read_unread, harg3.read_unread, harg4.read_unread, harg5.read_unread, harg6.read_unread, View.ld_unit_zero (S := S10000x128) hz2, View.ld_unit_zero (S := S128x32) hz2, View.ld_unit_zero (S := S400x10000) hz2, View.ld_unit_zero (S := S10000x32) hz2, View.ld_unit_zero (S := S1x32) hz2, View.ld_unit_zero (S := S32x16) hz2]

/-- At point 0 the output block's buffer ends at the block z (as f32) computed from the y just stored. -/
theorem outA_eq (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : cond0_0 i) (hc1 : cond0_1 i) (hc2 : ¬cond0_2 i) (x0 : Vec F S10000x128 .f32) (x1 : Vec F S400x10000 .f32) (x2 : Vec F S128x32 .f32) (x3 : Vec F S1x32 .f32) (x4 : Vec F S32x16 .f32) (x5 : Vec F S1x16 .f32)
    (f : arg8.view.ty.Contents (Elt F)) :
    arg8.view.read (Elt F) (arg8.view.writes (Elt F) f (kernelRun_A c i arg2 harg2 arg3 harg3 arg4 harg4 arg5 harg5 arg6 harg6 arg7 harg7 arg8 harg8 arg9 harg9 arg10 harg10 hc0 hc1 hc2 x0 x1 x2 x3 x4 x5).1) = k0_pay4 x1 (k0_pay1 x0 x2) x3 x4 := by
  rw [View.read_writes_eq_canon _ _ _ (View.cover_of_tiledL (kernelRun_A c i arg2 harg2 arg3 harg3 arg4 harg4 arg5 harg5 arg6 harg6 arg7 harg7 arg8 harg8 arg9 harg9 arg10 harg10 hc0 hc1 hc2 x0 x1 x2 x3 x4 x5).1 S1x400x16.size (by sl_kernel_rfl))]
  unfold kernelRun_A
  dsimp only
  sl_unfold_words
  rw [View.canon_unit_zero hz3, View.readCov_unit_zero (S := S10000x32) _ hz2]
  simp only [View.readAt_eq_ld, harg2.read_unread, harg3.read_unread, harg4.read_unread, harg5.read_unread, harg6.read_unread, View.ld_unit_zero (S := S10000x128) hz2, View.ld_unit_zero (S := S128x32) hz2, View.ld_unit_zero (S := S400x10000) hz2, View.ld_unit_zero (S := S10000x32) hz2, View.ld_unit_zero (S := S1x32) hz2, View.ld_unit_zero (S := S32x16) hz2]

/-- At point 0 a row of the second scratch inside the slice stored reads the block z (as bf16) at its position. -/
theorem s1A_in (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : cond0_0 i) (hc1 : cond0_1 i) (hc2 : ¬cond0_2 i) (x0 : Vec F S10000x128 .f32) (x1 : Vec F S400x10000 .f32) (x2 : Vec F S128x32 .f32) (x3 : Vec F S1x32 .f32) (x4 : Vec F S32x16 .f32) (x5 : Vec F S1x16 .f32)
    (xs1 : Vec F S10000x16 .bf16) (o : ℕ) (ho : k0_off1 i = ![o, 0]) (y : S10000x16.Idx) (p : Fin 400) (q : Fin 16)
    (hy0 : (y 0).val = o + p.val) (hy1 : (y 1).val = q.val) :
    arg10.view.read (Elt F) (arg10.view.writes (Elt F) (harg10.unread xs1) (kernelRun_A c i arg2 harg2 arg3 harg3 arg4 harg4 arg5 harg5 arg6 harg6 arg7 harg7 arg8 harg8 arg9 harg9 arg10 harg10 hc0 hc1 hc2 x0 x1 x2 x3 x4 x5).2.2.1) y
      = k0_pay3 x1 (k0_pay1 x0 x2) x3 x4 (ValueIdx.ix2 p q) := by
  unfold kernelRun_A
  dsimp only
  refine (View.read_writes_cons_rows_of_mem arg10.view (harg10.unread xs1) _ _ [] y (ValueIdx.ix2 p q) ho hy0 hy1).trans ?_
  sl_unfold_words
  rw [View.readCov_unit_zero (S := S10000x32) _ hz2]
  simp only [View.readAt_eq_ld, harg2.read_unread, harg3.read_unread, harg4.read_unread, harg5.read_unread, harg6.read_unread, View.ld_unit_zero (S := S10000x128) hz2, View.ld_unit_zero (S := S128x32) hz2, View.ld_unit_zero (S := S400x10000) hz2, View.ld_unit_zero (S := S10000x32) hz2, View.ld_unit_zero (S := S1x32) hz2, View.ld_unit_zero (S := S32x16) hz2]

/-- At point 0 a row of the second scratch outside the slice stored keeps what the scratch held. -/
theorem s1A_out (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : cond0_0 i) (hc1 : cond0_1 i) (hc2 : ¬cond0_2 i) (x0 : Vec F S10000x128 .f32) (x1 : Vec F S400x10000 .f32) (x2 : Vec F S128x32 .f32) (x3 : Vec F S1x32 .f32) (x4 : Vec F S32x16 .f32) (x5 : Vec F S1x16 .f32)
    (xs1 : Vec F S10000x16 .bf16) (o : ℕ) (ho : k0_off1 i = ![o, 0]) (y : S10000x16.Idx)
    (hy : (y 0).val < o ∨ o + 400 ≤ (y 0).val) :
    arg10.view.read (Elt F) (arg10.view.writes (Elt F) (harg10.unread xs1) (kernelRun_A c i arg2 harg2 arg3 harg3 arg4 harg4 arg5 harg5 arg6 harg6 arg7 harg7 arg8 harg8 arg9 harg9 arg10 harg10 hc0 hc1 hc2 x0 x1 x2 x3 x4 x5).2.2.1) y = xs1 y := by
  unfold kernelRun_A
  dsimp only
  refine (View.read_writes_cons_rows_of_not_mem (W := 400) arg10.view (harg10.unread xs1) _ _ [] y ho rfl hy).trans ?_
  rw [View.writes_nil, harg10.read_unread]

end Cert.Kernel.Hand

end
-- ==== Proof.KB.Frame.lean ====
/-
  The frame of the fused kernel, by induction over its 50 grid points, with the contents of both scratch buffers and of
  the output block named.
  Names: Yv is y = x·W1 as the first scratch holds it from point 0 on; zblk t is the block of z = max(adj·y + b1, 0)·W2 that
  point t < 25 computes from its row block of the adjacency matrix, and Zv the 10000-row array whose rows
  [400·t, 400·t + 400) are zblk t; out6 t is what point t leaves in the output block: zblk's value as f32 in phase 0, the
  log-softmax rows computed from the row block and the WHOLE Zv in phase 1.
  The invariant before point n ≥ 1: the first scratch holds Yv, and the second scratch agrees with Zv on its first
  400·min(n, 25) rows (the later rows hold whatever they held). Point 0 establishes it (it stores Yv whole and rows [0, 400));
  a point 0 < t < 25 extends it by rows [400·t, 400·t + 400), reading Yv; a point t ≥ 25 finds the whole second scratch
  equal to Zv and changes neither scratch.
-/
import proofs.«128424_g90108413870386_cont_sun_c4_37_9_alg».proof.Proof.KB.Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The n-th grid point. -/
def pt (n : ℕ) (h : n < 50) : Fin cfg0.N := ⟨n, lt_of_lt_of_eq h N_0.symm⟩
@[simp] theorem pt_val (n : ℕ) (h : n < 50) : (pt n h).val = n := rfl
theorem val_lt (t : Fin cfg0.N) : t.val < 50 := lt_of_lt_of_eq t.isLt N_0

/-- The first grid point. -/
abbrev t0 : Fin cfg0.N := pt 0 (by norm_num)

/-- y = x·W1 as stored in the first scratch at point 0. -/
def Yv (c : Dev nD) : Vec F S10000x32 .bf16 := k0_pay1 (iblk m c 0 t0) (iblk m c 2 t0)

/-- The block of z computed at point t (meaningful for t < 25). -/
def zblk (c : Dev nD) (t : Fin cfg0.N) : Vec F S400x16 .bf16 := k0_pay3 (iblk m c 1 t) (Yv m c) (iblk m c 3 t) (iblk m c 4 t)

/-- The whole z: row r is row r % 400 of the block computed at point r / 400. -/
def Zv (c : Dev nD) : Vec F S10000x16 .bf16 := fun y =>
  zblk m c (pt ((y 0).val / 400) (by have : (y 0).val < 10000 := (y 0).isLt; omega))
    (ValueIdx.ix2 (⟨(y 0).val % 400, Nat.mod_lt _ (by norm_num)⟩ : Fin 400) (⟨(y 1).val, (y 1).isLt⟩ : Fin 16))

/-- Zv at row 400·t + p, column q, is the block of point t at (p, q). -/
theorem Zv_at (c : Dev nD) (t : Fin cfg0.N) (ht : t.val < 25) (y : S10000x16.Idx) (p : Fin 400) (q : Fin 16)
    (h0 : (y 0).val = 400 * t.val + p.val) (h1 : (y 1).val = q.val) :
    Zv m c y = k0_pay3 (iblk m c 1 t) (Yv m c) (iblk m c 3 t) (iblk m c 4 t) (ValueIdx.ix2 p q) := by
  unfold Zv
  have e1 : pt ((y 0).val / 400) (by have : (y 0).val < 10000 := (y 0).isLt; omega) = t := Fin.ext (by
    show (y 0).val / 400 = t.val
    have := p.isLt; omega)
  have e2 : (⟨(y 0).val % 400, Nat.mod_lt _ (by norm_num)⟩ : Fin 400) = p := Fin.ext (by
    show (y 0).val % 400 = p.val
    have := p.isLt; omega)
  have e3 : (⟨(y 1).val, (y 1).isLt⟩ : Fin 16) = q := Fin.ext h1
  rw [e1, e2, e3]
  rfl

/-- What point t leaves in the output block. -/
def out6 (c : Dev nD) (t : Fin cfg0.N) : Vec F S1x400x16 .f32 :=
  if t.val < 25 then k0_pay4 (iblk m c 1 t) (Yv m c) (iblk m c 3 t) (iblk m c 4 t)
  else k0_pay5 (iblk m c 1 t) (Zv m c) (iblk m c 5 t)

/-- The region invariant before position n. -/
def PhiS (c : Dev nD) : (n : ℕ) → n ≤ cfg0.N → sProp 𝕄
  | 0, _ => Pipeline.ΦA spec0 c
  | n + 1, _ => iprop(iprop(owns (c : Thread nD τ) scM0_0 fullShare (Yv m c) ∗ (∃ d : Vec F S10000x16 .bf16, ⌜∀ y : S10000x16.Idx, (y 0).val < 400 * min (n + 1) 25 → d y = Zv m c y⌝ ∗ owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (Yv m c) ∗ (∃ d : Vec F S10000x16 .bf16, ⌜∀ y : S10000x16.Idx, (y 0).val < 400 * min (n + 1) 25 → d y = Zv m c y⌝ ∗ owns (c : Thread nD τ) scM0_1 fullShare d)) ∗ (∃ r, prngReg c r)) := rfl
theorem PhiS_pos (c : Dev nD) (n : ℕ) (h : n ≤ cfg0.N) (hz : n ≠ 0) :
    PhiS m c n h = iprop(iprop(owns (c : Thread nD τ) scM0_0 fullShare (Yv m c) ∗ (∃ d : Vec F S10000x16 .bf16, ⌜∀ y : S10000x16.Idx, (y 0).val < 400 * min n 25 → d y = Zv m c y⌝ ∗ owns (c : Thread nD τ) scM0_1 fullShare d)) ∗ (∃ r, prngReg c r)) := by
  cases n with
  | zero => exact absurd rfl hz
  | succ n => rfl

/-! ## The proof data -/

/-- The arrays as the region finds them; after the body at point t each input's buffer at its block and the output's at
    out6 t; the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point, by the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 50 := val_lt t
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases hz : t.val = 0
  · -- point 0: both scratch buffers at anything
    obtain rfl : t = pt 0 (by norm_num) := Fin.ext hz
    have h0 : cond0_0 (grid0.coords t0) := (hcond0_0 _).mpr rfl
    have h1 : cond0_1 (grid0.coords t0) := (hcond0_1 _).mpr (by norm_num)
    have h2 : ¬cond0_2 (grid0.coords t0) := fun h => absurd ((hcond0_2 _).mp h) (by norm_num)
    have ho : k0_off1 (grid0.coords t0) = ![0, 0] := hoff1 _ (by norm_num)
    rw [PhiS_castSucc m c _, PhiS_zero m c _ _ hz, PhiA0_eq]
    rw [show out6 m c t0 = k0_pay4 (iblk m c 1 t0) (Yv m c) (iblk m c 3 t0) (iblk m c 4 t0) from if_pos (by norm_num)]
    iintro ⟨⟨⟨HS0, ⟨%d1, HS1⟩⟩, Hg⟩, Ho, ⟨%d0, H0⟩, ⟨%e1, H1⟩, ⟨%d2, H2⟩, ⟨%d3, H3⟩, ⟨%d4, H4⟩, ⟨%d5, H5⟩, ⟨%d6, H6⟩⟩
    iapply ((kernelRun_A c (grid0.coords t0) _ _ _ _ _ _ _ _ _ _ _ _ _ _ _ _ _ _ h0 h1 h2 (iblk m c 0 t0) (iblk m c 1 t0) (iblk m c 2 t0) (iblk m c 3 t0) (iblk m c 4 t0) (iblk m c 5 t0)).2.2.2 d1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f6, H6⟩, ⟨%fs0, HS0⟩, HS1⟩
    isplitl [HS0 HS1 Hg]
    · isplitl [HS0 HS1]
      · isplitl [HS0]
        · unfold owns; iexists _; isplitr
          swap; · iexact HS0
          ipureintro; exact s0A_eq c _ _ _ _ _ _ _ _ _ _ _ _ _ _ _ _ _ _ _ h0 h1 h2 _ _ _ _ _ _ _
        iexists (scM0_1.view.read (Elt F) (scM0_1.view.writes (Elt F) ((Memref.isWhole_whole cc0_scratch1).unread d1) (kernelRun_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) scM0_1 (Memref.isWhole_whole _) h0 h1 h2 (iblk m c 0 t0) (iblk m c 1 t0) (iblk m c 2 t0) (iblk m c 3 t0) (iblk m c 4 t0) (iblk m c 5 t0)).2.2.1))
        isplitr
        · ipureintro
          intro y hy
          have hy' : (y 0).val < 400 := by simpa using hy
          refine (s1A_in c _ _ _ _ _ _ _ _ _ _ _ _ _ _ _ _ _ _ _ h0 h1 h2 _ _ _ _ _ _ d1 0 ho y ⟨(y 0).val, hy'⟩ ⟨(y 1).val, (y 1).isLt⟩ (by simp) rfl).trans ?_
          exact (Zv_at m c t0 (by show (0 : ℕ) < 25; norm_num) y ⟨(y 0).val, hy'⟩ ⟨(y 1).val, (y 1).isLt⟩ (by simp) rfl).symm
        · unfold owns; iexists _; isplitr
          swap; · iexact HS1
          ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact outA_eq c _ _ _ _ _ _ _ _ _ _ _ _ _ _ _ _ _ _ _ h0 h1 h2 _ _ _ _ _ _ _
  · by_cases hlt : t.val < 25
    · -- a later point of phase 0
      have h0 : ¬cond0_0 (grid0.coords t) := fun h => hz ((hcond0_0 t).mp h)
      have h1 : cond0_1 (grid0.coords t) := (hcond0_1 t).mpr hlt
      have h2 : ¬cond0_2 (grid0.coords t) := fun h => absurd ((hcond0_2 t).mp h) (by omega)
      have ho : k0_off1 (grid0.coords t) = ![400 * t.val, 0] := hoff1 t hlt
      rw [PhiS_castSucc m c t, PhiS_pos m c _ _ hz]
      rw [show out6 m c t = k0_pay4 (iblk m c 1 t) (Yv m c) (iblk m c 3 t) (iblk m c 4 t) from if_pos hlt]
      iintro ⟨⟨⟨HS0, ⟨%d1, %hd1, HS1⟩⟩, Hg⟩, Ho, ⟨%d0, H0⟩, ⟨%e1, H1⟩, ⟨%d2, H2⟩, ⟨%d3, H3⟩, ⟨%d4, H4⟩, ⟨%d5, H5⟩, ⟨%d6, H6⟩⟩
      iapply ((kernelRun_B c (grid0.coords t) _ _ _ _ _ _ _ _ _ _ _ _ _ _ _ _ _ _ h0 h1 h2 (iblk m c 0 t) (iblk m c 1 t) (iblk m c 2 t) (iblk m c 3 t) (iblk m c 4 t) (iblk m c 5 t) (Yv m c)).2.2 d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%f6, H6⟩, HS0, HS1⟩
      isplitl [HS0 HS1 Hg]
      · isplitl [HS0 HS1]
        · isplitl [HS0]
          · iexact HS0
          iexists (scM0_1.view.read (Elt F) (scM0_1.view.writes (Elt F) ((Memref.isWhole_whole cc0_scratch1).unread d1) (kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 h2 (iblk m c 0 t) (iblk m c 1 t) (iblk m c 2 t) (iblk m c 3 t) (iblk m c 4 t) (iblk m c 5 t) (Yv m c)).2.1))
          isplitr
          · ipureintro
            intro y hy
            have hm : min t.val 25 = t.val := by omega
            have hm' : min (t.val + 1) 25 = t.val + 1 := by omega
            rw [hm'] at hy
            by_cases hin : (y 0).val < 400 * t.val
            · refine (s1B_out c _ _ _ _ _ _ _ _ _ _ _ _ _ _ _ _ _ _ _ h0 h1 h2 _ _ _ _ _ _ _ d1 (400 * t.val) ho y (Or.inl hin)).trans ?_
              exact hd1 y (by rw [hm]; exact hin)
            · have hp : (y 0).val - 400 * t.val < 400 := by omega
              refine (s1B_in c _ _ _ _ _ _ _ _ _ _ _ _ _ _ _ _ _ _ _ h0 h1 h2 _ _ _ _ _ _ _ d1 (400 * t.val) ho y ⟨(y 0).val - 400 * t.val, hp⟩ ⟨(y 1).val, (y 1).isLt⟩ (by simp; omega) rfl).trans ?_
              exact (Zv_at m c t hlt y ⟨(y 0).val - 400 * t.val, hp⟩ ⟨(y 1).val, (y 1).isLt⟩ (by simp; omega) rfl).symm
          · unfold owns; iexists _; isplitr
            swap; · iexact HS1
            ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact outB_eq c _ _ _ _ _ _ _ _ _ _ _ _ _ _ _ _ _ _ _ h0 h1 h2 _ _ _ _ _ _ _ _
    · -- phase 1: the second scratch is the whole z
      have h0 : ¬cond0_0 (grid0.coords t) := fun h => hz ((hcond0_0 t).mp h)
      have h1 : ¬cond0_1 (grid0.coords t) := fun h => hlt ((hcond0_1 t).mp h)
      have h2 : cond0_2 (grid0.coords t) := (hcond0_2 t).mpr (by omega)
      rw [PhiS_castSucc m c t, PhiS_pos m c _ _ hz]
      rw [show out6 m c t = k0_pay5 (iblk m c 1 t) (Zv m c) (iblk m c 5 t) from if_neg hlt]
      iintro ⟨⟨⟨HS0, ⟨%d1, %hd1, HS1⟩⟩, Hg⟩, Ho, ⟨%d0, H0⟩, ⟨%e1, H1⟩, ⟨%d2, H2⟩, ⟨%d3, H3⟩, ⟨%d4, H4⟩, ⟨%d5, H5⟩, ⟨%d6, H6⟩⟩
      obtain rfl : d1 = Zv m c := funext fun y => hd1 y (by
        have hm : min t.val 25 = 25 := by omega
        have : (y 0).val < 10000 := (y 0).isLt
        rw [hm]; omega)
      iapply ((kernelRun_C c (grid0.coords t) _ _ _ _ _ _ _ _ _ _ _ _ _ _ _ _ _ _ h0 h1 h2 (iblk m c 0 t) (iblk m c 1 t) (iblk m c 2 t) (iblk m c 3 t) (iblk m c 4 t) (iblk m c 5 t) (Yv m c) (Zv m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%f6, H6⟩, HS0, HS1⟩
      isplitl [HS0 HS1 Hg]
      · isplitl [HS0 HS1]
        · isplitl [HS0]
          · iexact HS0
          iexists (Zv m c)
          isplitr
          · ipureintro; intro y _; rfl
          · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact outC_eq c _ _ _ _ _ _ _ _ _ _ _ _ _ _ _ _ _ _ _ h0 h1 h2 _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA0_eq]
  iintro ⟨⟨HS0, ⟨%d1, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates; the region's arrays end at what the proof data say, every other
    unscoped buffer at what the host lines after the region compute from them. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any F. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.KI.Base.lean ====
/-
  The grid of the fused two-layer kernel, point by point. The grid has 2 × 25 = 50 points, visited in order
  t = 25·p + r. The body has three conditionals on the coordinates: the first (p = 0 and r = 0) holds at point 0 only,
  the second (p = 0) at points 0 … 24, the third (p = 1) at points 25 … 49. At a point t < 25 the slice of the second
  scratch the body stores starts at row 400·t. No window is ever idle (the output block is stored at every point).
  Also here: each window's current staging buffer at a point, the two scratch buffers as whole memrefs, and the
  region's scoped rest spelt as those two buffers at some contents.
-/
import proofs.«128424_g90108413870386_cont_sun_c4_37_9_alg».proof.Proof.Gen.KernelIdeal.Frame
import proofs.«128424_g90108413870386_cont_sun_c4_37_9_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional: phase 0 and row block 0. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)
/-- The second conditional: phase 0. -/
abbrev cond0_1 (i : grid0.Coords) : Prop := k0_cond2 i = 1#1
theorem hcond0_1 : ∀ t : Fin cfg0.N, cond0_1 (grid0.coords t) ↔ t.val < 25 :=
  (by decide +kernel : ∀ t : Fin grid0.N, cond0_1 (grid0.coords t) ↔ t.val < 25)
/-- The third conditional: phase 1. -/
abbrev cond0_2 (i : grid0.Coords) : Prop := k0_cond3 i = 1#1
theorem hcond0_2 : ∀ t : Fin cfg0.N, cond0_2 (grid0.coords t) ↔ 25 ≤ t.val :=
  (by decide +kernel : ∀ t : Fin grid0.N, cond0_2 (grid0.coords t) ↔ 25 ≤ t.val)

/-- In phase 0 the slice of the second scratch stored at point t starts at row 400·t, column 0. -/
theorem hoff1 : ∀ t : Fin cfg0.N, t.val < 25 → k0_off1 (grid0.coords t) = ![400 * t.val, 0] :=
  (by decide +kernel : ∀ t : Fin grid0.N, t.val < 25 → k0_off1 (grid0.coords t) = ![400 * t.val, 0])

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

/-- Each window's current staging memref at point t, as the pipeline passes it to the body, and its wholeness. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x400x16 .f32 := win0_6.stage (cfg0.slots t 6)
abbrev hs0_6 (t : Fin cfg0.N) : (ms0_6 t).IsWhole := hstage0_6 ((cfg0.slots t 6).cast nbuf0_6)
/-- The two scratch operands: whole scoped buffers, passed to the body beside the windows. -/
abbrev scM0_0 : Memref sig .tc .vmem S10000x32 .bf16 := Memref.whole cc0_scratch0
abbrev scM0_1 : Memref sig .tc .vmem S10000x16 .bf16 := Memref.whole cc0_scratch1

/-- What the launch hands the region besides the windows: the two scratch buffers at some contents and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.RunC.lean ====
/-
  The body at a point of phase 1 (points 25 … 49): only the third conditional is taken. The body loads the row block of
  the adjacency matrix, the whole second scratch, the second bias, and stores ONE piece covering the output block:
  the log-softmax rows computed from them. Nothing else is written; both scratch buffers are handed back as found.
-/
import proofs.«128424_g90108413870386_cont_sun_c4_37_9_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in phase 1, with the pieces it leaves in the output block's buffer as the witness. -/
noncomputable def kernelRun_C (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : ¬cond0_0 i) (hc1 : ¬cond0_1 i) (hc2 : cond0_2 i)
    (x0 : Vec F S10000x128 .f32) (x1 : Vec F S400x10000 .f32) (x2 : Vec F S128x32 .f32) (x3 : Vec F S1x32 .f32) (x4 : Vec F S32x16 .f32) (x5 : Vec F S1x16 .f32) (xs0 : Vec F S10000x32 .bf16) (xs1 : Vec F S10000x16 .bf16) :
    { LO : List (View.Piece (Elt F) S1x400x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ owns (c : Thread nD τ) arg9 fullShare xs0 ∗ owns (c : Thread nD τ) arg10 fullShare xs1) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    iexists _; isplitr; · ipureintro; exact harg10.read_unread _
    iexact HS1

end Cert.KernelIdeal.Hand

end
-- ==== Proof.KI.RunB.lean ====
/-
  The body at a later point of phase 0 (points 1 … 24): only the second conditional is taken. The body loads the row
  block of the adjacency matrix, the whole first scratch (left by point 0), the first bias and the second weight matrix,
  computes the block z = max(adj·y + b1, 0)·W2, stores it (as bf16) into rows [400·r, 400·r + 400) of the second scratch —
  ONE piece, over whatever that scratch held — and stores it (as f32) over the whole output block.
-/
import proofs.«128424_g90108413870386_cont_sun_c4_37_9_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at points 1 … 24, with the pieces it leaves in the output block's buffer and in the second scratch as
    the witnesses; the second scratch's earlier contents stay under the piece. -/
noncomputable def kernelRun_B (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : ¬cond0_0 i) (hc1 : cond0_1 i) (hc2 : ¬cond0_2 i)
    (x0 : Vec F S10000x128 .f32) (x1 : Vec F S400x10000 .f32) (x2 : Vec F S128x32 .f32) (x3 : Vec F S1x32 .f32) (x4 : Vec F S32x16 .f32) (x5 : Vec F S1x16 .f32) (xs0 : Vec F S10000x32 .bf16) :
    Σ' (LO : List (View.Piece (Elt F) S1x400x16 .f32)), { LS1 : List (View.Piece (Elt F) S10000x16 .bf16) //
      ∀ (xs1 : Vec F S10000x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ owns (c : Thread nD τ) arg9 fullShare xs0 ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, ?_, fun xs1 E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    iexact HS1

end Cert.KernelIdeal.Hand

end
-- ==== Proof.KI.RunA.lean ====
/-
  The body at the grid's first point: the first and second conditionals are taken. The body first stores y = x·W1 (as
  bf16) over the WHOLE first scratch — one covering piece —, then reads it back and goes on as at the later points of
  phase 0: the block z = max(adj·y + b1, 0)·W2 into rows [0, 400) of the second scratch, over whatever it held, and over the
  whole output block.
-/
import proofs.«128424_g90108413870386_cont_sun_c4_37_9_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at point 0, with the pieces it leaves in the output block's buffer and in both scratch buffers as the
    witnesses; the second scratch's earlier contents stay under its piece. -/
noncomputable def kernelRun_A (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : cond0_0 i) (hc1 : cond0_1 i) (hc2 : ¬cond0_2 i)
    (x0 : Vec F S10000x128 .f32) (x1 : Vec F S400x10000 .f32) (x2 : Vec F S128x32 .f32) (x3 : Vec F S1x32 .f32) (x4 : Vec F S32x16 .f32) (x5 : Vec F S1x16 .f32) :
    Σ' (LO : List (View.Piece (Elt F) S1x400x16 .f32)), Σ' (LS0 : List (View.Piece (Elt F) S10000x32 .bf16)), { LS1 : List (View.Piece (Elt F) S10000x16 .bf16) //
      ∀ (xs1 : Vec F S10000x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, ?_, ?_, fun xs1 E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexact HS1

end Cert.KernelIdeal.Hand

end
-- ==== Proof.KI.Pieces.lean ====
/-
  What the body's stores leave, read back as values. In every case the output block's buffer is covered by one piece,
  so it ends holding that piece's payload whatever it held: in phase 0 the block z = max(adj·y + b1, 0)·W2 of the row block
  (as f32), in phase 1 the log-softmax rows. At point 0 the first scratch is covered by one piece, y = x·W1. In phase 0 the
  second scratch gets one piece of 400 whole rows: a row inside the piece reads the piece's payload (z as bf16) at the
  row's position in the block, a row outside it reads what the scratch held before.
-/
import proofs.«128424_g90108413870386_cont_sun_c4_37_9_alg».proof.Proof.KI.RunA
import Idealize.ShloMosaic.Lib.Pipeline.Value
import Idealize.ShloMosaic.Lib.WritesUnit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## Phase 1 -/

/-- In phase 1 the output block's buffer ends at the log-softmax rows of the loaded block, scratch and bias. -/
theorem outC_eq (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : ¬cond0_0 i) (hc1 : ¬cond0_1 i) (hc2 : cond0_2 i) (x0 : Vec F S10000x128 .f32) (x1 : Vec F S400x10000 .f32) (x2 : Vec F S128x32 .f32) (x3 : Vec F S1x32 .f32) (x4 : Vec F S32x16 .f32) (x5 : Vec F S1x16 .f32) (xs0 : Vec F S10000x32 .bf16) (xs1 : Vec F S10000x16 .bf16)
    (f : arg8.view.ty.Contents (Elt F)) :
    arg8.view.read (Elt F) (arg8.view.writes (Elt F) f (kernelRun_C c i arg2 harg2 arg3 harg3 arg4 harg4 arg5 harg5 arg6 harg6 arg7 harg7 arg8 harg8 arg9 harg9 arg10 harg10 hc0 hc1 hc2 x0 x1 x2 x3 x4 x5 xs0 xs1).1) = k0_pay5 x1 xs1 x5 := by
  rw [View.read_writes_eq_canon _ _ _ (View.cover_of_tiledL (kernelRun_C c i arg2 harg2 arg3 harg3 arg4 harg4 arg5 harg5 arg6 harg6 arg7 harg7 arg8 harg8 arg9 harg9 arg10 harg10 hc0 hc1 hc2 x0 x1 x2 x3 x4 x5 xs0 xs1).1 S1x400x16.size (by sl_kernel_rfl))]
  unfold kernelRun_C
  dsimp only
  rw [View.canon_unit_zero hz3]
  simp only [View.readAt_eq_ld, harg3.read_unread, harg10.read_unread, harg7.read_unread, View.ld_unit_zero (S := S400x10000) hz2, View.ld_unit_zero (S := S10000x16) hz2, View.ld_unit_zero (S := S1x16) hz2]

/-! ## Phase 0, points 1 … 24 -/

/-- At a later point of phase 0 the output block's buffer ends at the block z (as f32). -/
theorem outB_eq (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : ¬cond0_0 i) (hc1 : cond0_1 i) (hc2 : ¬cond0_2 i) (x0 : Vec F S10000x128 .f32) (x1 : Vec F S400x10000 .f32) (x2 : Vec F S128x32 .f32) (x3 : Vec F S1x32 .f32) (x4 : Vec F S32x16 .f32) (x5 : Vec F S1x16 .f32) (xs0 : Vec F S10000x32 .bf16)
    (f : arg8.view.ty.Contents (Elt F)) :
    arg8.view.read (Elt F) (arg8.view.writes (Elt F) f (kernelRun_B c i arg2 harg2 arg3 harg3 arg4 harg4 arg5 harg5 arg6 harg6 arg7 harg7 arg8 harg8 arg9 harg9 arg10 harg10 hc0 hc1 hc2 x0 x1 x2 x3 x4 x5 xs0).1) = k0_pay4 x1 xs0 x3 x4 := by
  rw [View.read_writes_eq_canon _ _ _ (View.cover_of_tiledL (kernelRun_B c i arg2 harg2 arg3 harg3 arg4 harg4 arg5 harg5 arg6 harg6 arg7 harg7 arg8 harg8 arg9 harg9 arg10 harg10 hc0 hc1 hc2 x0 x1 x2 x3 x4 x5 xs0).1 S1x400x16.size (by sl_kernel_rfl))]
  unfold kernelRun_B
  dsimp only
  rw [View.canon_unit_zero hz3]
  simp only [View.readAt_eq_ld, harg3.read_unread, harg9.read_unread, harg5.read_unread, harg6.read_unread, View.ld_unit_zero (S := S400x10000) hz2, View.ld_unit_zero (S := S10000x32) hz2, View.ld_unit_zero (S := S1x32) hz2, View.ld_unit_zero (S := S32x16) hz2]

/-- A row of the second scratch inside the slice stored at this point reads the block z (as bf16) at its position. -/
theorem s1B_in (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : ¬cond0_0 i) (hc1 : cond0_1 i) (hc2 : ¬cond0_2 i) (x0 : Vec F S10000x128 .f32) (x1 : Vec F S400x10000 .f32) (x2 : Vec F S128x32 .f32) (x3 : Vec F S1x32 .f32) (x4 : Vec F S32x16 .f32) (x5 : Vec F S1x16 .f32) (xs0 : Vec F S10000x32 .bf16)
    (xs1 : Vec F S10000x16 .bf16) (o : ℕ) (ho : k0_off1 i = ![o, 0]) (y : S10000x16.Idx) (p : Fin 400) (q : Fin 16)
    (hy0 : (y 0).val = o + p.val) (hy1 : (y 1).val = q.val) :
    arg10.view.read (Elt F) (arg10.view.writes (Elt F) (harg10.unread xs1) (kernelRun_B c i arg2 harg2 arg3 harg3 arg4 harg4 arg5 harg5 arg6 harg6 arg7 harg7 arg8 harg8 arg9 harg9 arg10 harg10 hc0 hc1 hc2 x0 x1 x2 x3 x4 x5 xs0).2.1) y
      = k0_pay3 x1 xs0 x3 x4 (ValueIdx.ix2 p q) := by
  unfold kernelRun_B
  dsimp only
  refine (View.read_writes_cons_rows_of_mem arg10.view (harg10.unread xs1) _ _ [] y (ValueIdx.ix2 p q) ho hy0 hy1).trans ?_
  simp only [View.readAt_eq_ld, harg3.read_unread, harg9.read_unread, harg5.read_unread, harg6.read_unread, View.ld_unit_zero (S := S400x10000) hz2, View.ld_unit_zero (S := S10000x32) hz2, View.ld_unit_zero (S := S1x32) hz2, View.ld_unit_zero (S := S32x16) hz2]

/-- A row of the second scratch outside the slice stored at this point keeps what the scratch held. -/
theorem s1B_out (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : ¬cond0_0 i) (hc1 : cond0_1 i) (hc2 : ¬cond0_2 i) (x0 : Vec F S10000x128 .f32) (x1 : Vec F S400x10000 .f32) (x2 : Vec F S128x32 .f32) (x3 : Vec F S1x32 .f32) (x4 : Vec F S32x16 .f32) (x5 : Vec F S1x16 .f32) (xs0 : Vec F S10000x32 .bf16)
    (xs1 : Vec F S10000x16 .bf16) (o : ℕ) (ho : k0_off1 i = ![o, 0]) (y : S10000x16.Idx)
    (hy : (y 0).val < o ∨ o + 400 ≤ (y 0).val) :
    arg10.view.read (Elt F) (arg10.view.writes (Elt F) (harg10.unread xs1) (kernelRun_B c i arg2 harg2 arg3 harg3 arg4 harg4 arg5 harg5 arg6 harg6 arg7 harg7 arg8 harg8 arg9 harg9 arg10 harg10 hc0 hc1 hc2 x0 x1 x2 x3 x4 x5 xs0).2.1) y = xs1 y := by
  unfold kernelRun_B
  dsimp only
  refine (View.read_writes_cons_rows_of_not_mem (W := 400) arg10.view (harg10.unread xs1) _ _ [] y ho rfl hy).trans ?_
  rw [View.writes_nil, harg10.read_unread]

/-! ## Point 0 -/

/-- At point 0 the first scratch ends at y = x·W1 (as bf16), whatever it held. -/
theorem s0A_eq (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : cond0_0 i) (hc1 : cond0_1 i) (hc2 : ¬cond0_2 i) (x0 : Vec F S10000x128 .f32) (x1 : Vec F S400x10000 .f32) (x2 : Vec F S128x32 .f32) (x3 : Vec F S1x32 .f32) (x4 : Vec F S32x16 .f32) (x5 : Vec F S1x16 .f32)
    (f : arg9.view.ty.Contents (Elt F)) :
    arg9.view.read (Elt F) (arg9.view.writes (Elt F) f (kernelRun_A c i arg2 harg2 arg3 harg3 arg4 harg4 arg5 harg5 arg6 harg6 arg7 harg7 arg8 harg8 arg9 harg9 arg10 harg10 hc0 hc1 hc2 x0 x1 x2 x3 x4 x5).2.1) = k0_pay1 x0 x2 := by
  rw [View.read_writes_eq_canon _ _ _ (View.cover_of_tiledL (kernelRun_A c i arg2 harg2 arg3 harg3 arg4 harg4 arg5 harg5 arg6 harg6 arg7 harg7 arg8 harg8 arg9 harg9 arg10 harg10 hc0 hc1 hc2 x0 x1 x2 x3 x4 x5).2.1 S10000x32.size (by sl_kernel_rfl))]
  unfold kernelRun_A
  dsimp only
  sl_unfold_words
  rw [View.canon_unit_zero hz2]
  simp only [View.readAt_eq_ld, harg2.read_unread, harg3.read_unread, harg4.read_unread, harg5.read_unread, harg6.read_unread, View.ld_unit_zero (S := S10000x128) hz2, View.ld_unit_zero (S := S128x32) hz2, View.ld_unit_zero (S := S400x10000) hz2, View.ld_unit_zero (S := S10000x32) hz2, View.ld_unit_zero (S := S1x32) hz2, View.ld_unit_zero (S := S32x16) hz2]

/-- At point 0 the output block's buffer ends at the block z (as f32) computed from the y just stored. -/
theorem outA_eq (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : cond0_0 i) (hc1 : cond0_1 i) (hc2 : ¬cond0_2 i) (x0 : Vec F S10000x128 .f32) (x1 : Vec F S400x10000 .f32) (x2 : Vec F S128x32 .f32) (x3 : Vec F S1x32 .f32) (x4 : Vec F S32x16 .f32) (x5 : Vec F S1x16 .f32)
    (f : arg8.view.ty.Contents (Elt F)) :
    arg8.view.read (Elt F) (arg8.view.writes (Elt F) f (kernelRun_A c i arg2 harg2 arg3 harg3 arg4 harg4 arg5 harg5 arg6 harg6 arg7 harg7 arg8 harg8 arg9 harg9 arg10 harg10 hc0 hc1 hc2 x0 x1 x2 x3 x4 x5).1) = k0_pay4 x1 (k0_pay1 x0 x2) x3 x4 := by
  rw [View.read_writes_eq_canon _ _ _ (View.cover_of_tiledL (kernelRun_A c i arg2 harg2 arg3 harg3 arg4 harg4 arg5 harg5 arg6 harg6 arg7 harg7 arg8 harg8 arg9 harg9 arg10 harg10 hc0 hc1 hc2 x0 x1 x2 x3 x4 x5).1 S1x400x16.size (by sl_kernel_rfl))]
  unfold kernelRun_A
  dsimp only
  sl_unfold_words
  rw [View.canon_unit_zero hz3, View.readCov_unit_zero (S := S10000x32) _ hz2]
  simp only [View.readAt_eq_ld, harg2.read_unread, harg3.read_unread, harg4.read_unread, harg5.read_unread, harg6.read_unread, View.ld_unit_zero (S := S10000x128) hz2, View.ld_unit_zero (S := S128x32) hz2, View.ld_unit_zero (S := S400x10000) hz2, View.ld_unit_zero (S := S10000x32) hz2, View.ld_unit_zero (S := S1x32) hz2, View.ld_unit_zero (S := S32x16) hz2]

/-- At point 0 a row of the second scratch inside the slice stored reads the block z (as bf16) at its position. -/
theorem s1A_in (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : cond0_0 i) (hc1 : cond0_1 i) (hc2 : ¬cond0_2 i) (x0 : Vec F S10000x128 .f32) (x1 : Vec F S400x10000 .f32) (x2 : Vec F S128x32 .f32) (x3 : Vec F S1x32 .f32) (x4 : Vec F S32x16 .f32) (x5 : Vec F S1x16 .f32)
    (xs1 : Vec F S10000x16 .bf16) (o : ℕ) (ho : k0_off1 i = ![o, 0]) (y : S10000x16.Idx) (p : Fin 400) (q : Fin 16)
    (hy0 : (y 0).val = o + p.val) (hy1 : (y 1).val = q.val) :
    arg10.view.read (Elt F) (arg10.view.writes (Elt F) (harg10.unread xs1) (kernelRun_A c i arg2 harg2 arg3 harg3 arg4 harg4 arg5 harg5 arg6 harg6 arg7 harg7 arg8 harg8 arg9 harg9 arg10 harg10 hc0 hc1 hc2 x0 x1 x2 x3 x4 x5).2.2.1) y
      = k0_pay3 x1 (k0_pay1 x0 x2) x3 x4 (ValueIdx.ix2 p q) := by
  unfold kernelRun_A
  dsimp only
  refine (View.read_writes_cons_rows_of_mem arg10.view (harg10.unread xs1) _ _ [] y (ValueIdx.ix2 p q) ho hy0 hy1).trans ?_
  sl_unfold_words
  rw [View.readCov_unit_zero (S := S10000x32) _ hz2]
  simp only [View.readAt_eq_ld, harg2.read_unread, harg3.read_unread, harg4.read_unread, harg5.read_unread, harg6.read_unread, View.ld_unit_zero (S := S10000x128) hz2, View.ld_unit_zero (S := S128x32) hz2, View.ld_unit_zero (S := S400x10000) hz2, View.ld_unit_zero (S := S10000x32) hz2, View.ld_unit_zero (S := S1x32) hz2, View.ld_unit_zero (S := S32x16) hz2]

/-- At point 0 a row of the second scratch outside the slice stored keeps what the scratch held. -/
theorem s1A_out (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S1x400x16 .f32) (harg8 : arg8.IsWhole) (arg9 : Memref sig .tc .vmem S10000x32 .bf16) (harg9 : arg9.IsWhole) (arg10 : Memref sig .tc .vmem S10000x16 .bf16) (harg10 : arg10.IsWhole) (hc0 : cond0_0 i) (hc1 : cond0_1 i) (hc2 : ¬cond0_2 i) (x0 : Vec F S10000x128 .f32) (x1 : Vec F S400x10000 .f32) (x2 : Vec F S128x32 .f32) (x3 : Vec F S1x32 .f32) (x4 : Vec F S32x16 .f32) (x5 : Vec F S1x16 .f32)
    (xs1 : Vec F S10000x16 .bf16) (o : ℕ) (ho : k0_off1 i = ![o, 0]) (y : S10000x16.Idx)
    (hy : (y 0).val < o ∨ o + 400 ≤ (y 0).val) :
    arg10.view.read (Elt F) (arg10.view.writes (Elt F) (harg10.unread xs1) (kernelRun_A c i arg2 harg2 arg3 harg3 arg4 harg4 arg5 harg5 arg6 harg6 arg7 harg7 arg8 harg8 arg9 harg9 arg10 harg10 hc0 hc1 hc2 x0 x1 x2 x3 x4 x5).2.2.1) y = xs1 y := by
  unfold kernelRun_A
  dsimp only
  refine (View.read_writes_cons_rows_of_not_mem (W := 400) arg10.view (harg10.unread xs1) _ _ [] y ho rfl hy).trans ?_
  rw [View.writes_nil, harg10.read_unread]

end Cert.KernelIdeal.Hand

end
-- ==== Proof.KI.Frame.lean ====
/-
  The frame of the fused kernel, by induction over its 50 grid points, with the contents of both scratch buffers and of
  the output block named.
  Names: Yv is y = x·W1 as the first scratch holds it from point 0 on; zblk t is the block of z = max(adj·y + b1, 0)·W2 that
  point t < 25 computes from its row block of the adjacency matrix, and Zv the 10000-row array whose rows
  [400·t, 400·t + 400) are zblk t; out6 t is what point t leaves in the output block: zblk's value as f32 in phase 0, the
  log-softmax rows computed from the row block and the WHOLE Zv in phase 1.
  The invariant before point n ≥ 1: the first scratch holds Yv, and the second scratch agrees with Zv on its first
  400·min(n, 25) rows (the later rows hold whatever they held). Point 0 establishes it (it stores Yv whole and rows [0, 400));
  a point 0 < t < 25 extends it by rows [400·t, 400·t + 400), reading Yv; a point t ≥ 25 finds the whole second scratch
  equal to Zv and changes neither scratch.
-/
import proofs.«128424_g90108413870386_cont_sun_c4_37_9_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The n-th grid point. -/
def pt (n : ℕ) (h : n < 50) : Fin cfg0.N := ⟨n, lt_of_lt_of_eq h N_0.symm⟩
@[simp] theorem pt_val (n : ℕ) (h : n < 50) : (pt n h).val = n := rfl
theorem val_lt (t : Fin cfg0.N) : t.val < 50 := lt_of_lt_of_eq t.isLt N_0

/-- The first grid point. -/
abbrev t0 : Fin cfg0.N := pt 0 (by norm_num)

/-- y = x·W1 as stored in the first scratch at point 0. -/
def Yv (c : Dev nD) : Vec F S10000x32 .bf16 := k0_pay1 (iblk m c 0 t0) (iblk m c 2 t0)

/-- The block of z computed at point t (meaningful for t < 25). -/
def zblk (c : Dev nD) (t : Fin cfg0.N) : Vec F S400x16 .bf16 := k0_pay3 (iblk m c 1 t) (Yv m c) (iblk m c 3 t) (iblk m c 4 t)

/-- The whole z: row r is row r % 400 of the block computed at point r / 400. -/
def Zv (c : Dev nD) : Vec F S10000x16 .bf16 := fun y =>
  zblk m c (pt ((y 0).val / 400) (by have : (y 0).val < 10000 := (y 0).isLt; omega))
    (ValueIdx.ix2 (⟨(y 0).val % 400, Nat.mod_lt _ (by norm_num)⟩ : Fin 400) (⟨(y 1).val, (y 1).isLt⟩ : Fin 16))

/-- Zv at row 400·t + p, column q, is the block of point t at (p, q). -/
theorem Zv_at (c : Dev nD) (t : Fin cfg0.N) (ht : t.val < 25) (y : S10000x16.Idx) (p : Fin 400) (q : Fin 16)
    (h0 : (y 0).val = 400 * t.val + p.val) (h1 : (y 1).val = q.val) :
    Zv m c y = k0_pay3 (iblk m c 1 t) (Yv m c) (iblk m c 3 t) (iblk m c 4 t) (ValueIdx.ix2 p q) := by
  unfold Zv
  have e1 : pt ((y 0).val / 400) (by have : (y 0).val < 10000 := (y 0).isLt; omega) = t := Fin.ext (by
    show (y 0).val / 400 = t.val
    have := p.isLt; omega)
  have e2 : (⟨(y 0).val % 400, Nat.mod_lt _ (by norm_num)⟩ : Fin 400) = p := Fin.ext (by
    show (y 0).val % 400 = p.val
    have := p.isLt; omega)
  have e3 : (⟨(y 1).val, (y 1).isLt⟩ : Fin 16) = q := Fin.ext h1
  rw [e1, e2, e3]
  rfl

/-- What point t leaves in the output block. -/
def out6 (c : Dev nD) (t : Fin cfg0.N) : Vec F S1x400x16 .f32 :=
  if t.val < 25 then k0_pay4 (iblk m c 1 t) (Yv m c) (iblk m c 3 t) (iblk m c 4 t)
  else k0_pay5 (iblk m c 1 t) (Zv m c) (iblk m c 5 t)

/-- The region invariant before position n. -/
def PhiS (c : Dev nD) : (n : ℕ) → n ≤ cfg0.N → sProp 𝕄
  | 0, _ => Pipeline.ΦA spec0 c
  | n + 1, _ => iprop(iprop(owns (c : Thread nD τ) scM0_0 fullShare (Yv m c) ∗ (∃ d : Vec F S10000x16 .bf16, ⌜∀ y : S10000x16.Idx, (y 0).val < 400 * min (n + 1) 25 → d y = Zv m c y⌝ ∗ owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (Yv m c) ∗ (∃ d : Vec F S10000x16 .bf16, ⌜∀ y : S10000x16.Idx, (y 0).val < 400 * min (n + 1) 25 → d y = Zv m c y⌝ ∗ owns (c : Thread nD τ) scM0_1 fullShare d)) ∗ (∃ r, prngReg c r)) := rfl
theorem PhiS_pos (c : Dev nD) (n : ℕ) (h : n ≤ cfg0.N) (hz : n ≠ 0) :
    PhiS m c n h = iprop(iprop(owns (c : Thread nD τ) scM0_0 fullShare (Yv m c) ∗ (∃ d : Vec F S10000x16 .bf16, ⌜∀ y : S10000x16.Idx, (y 0).val < 400 * min n 25 → d y = Zv m c y⌝ ∗ owns (c : Thread nD τ) scM0_1 fullShare d)) ∗ (∃ r, prngReg c r)) := by
  cases n with
  | zero => exact absurd rfl hz
  | succ n => rfl

/-! ## The proof data -/

/-- The arrays as the region finds them; after the body at point t each input's buffer at its block and the output's at
    out6 t; the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point, by the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 50 := val_lt t
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases hz : t.val = 0
  · -- point 0: both scratch buffers at anything
    obtain rfl : t = pt 0 (by norm_num) := Fin.ext hz
    have h0 : cond0_0 (grid0.coords t0) := (hcond0_0 _).mpr rfl
    have h1 : cond0_1 (grid0.coords t0) := (hcond0_1 _).mpr (by norm_num)
    have h2 : ¬cond0_2 (grid0.coords t0) := fun h => absurd ((hcond0_2 _).mp h) (by norm_num)
    have ho : k0_off1 (grid0.coords t0) = ![0, 0] := hoff1 _ (by norm_num)
    rw [PhiS_castSucc m c _, PhiS_zero m c _ _ hz, PhiA0_eq]
    rw [show out6 m c t0 = k0_pay4 (iblk m c 1 t0) (Yv m c) (iblk m c 3 t0) (iblk m c 4 t0) from if_pos (by norm_num)]
    iintro ⟨⟨⟨HS0, ⟨%d1, HS1⟩⟩, Hg⟩, Ho, ⟨%d0, H0⟩, ⟨%e1, H1⟩, ⟨%d2, H2⟩, ⟨%d3, H3⟩, ⟨%d4, H4⟩, ⟨%d5, H5⟩, ⟨%d6, H6⟩⟩
    iapply ((kernelRun_A c (grid0.coords t0) _ _ _ _ _ _ _ _ _ _ _ _ _ _ _ _ _ _ h0 h1 h2 (iblk m c 0 t0) (iblk m c 1 t0) (iblk m c 2 t0) (iblk m c 3 t0) (iblk m c 4 t0) (iblk m c 5 t0)).2.2.2 d1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f6, H6⟩, ⟨%fs0, HS0⟩, HS1⟩
    isplitl [HS0 HS1 Hg]
    · isplitl [HS0 HS1]
      · isplitl [HS0]
        · unfold owns; iexists _; isplitr
          swap; · iexact HS0
          ipureintro; exact s0A_eq c _ _ _ _ _ _ _ _ _ _ _ _ _ _ _ _ _ _ _ h0 h1 h2 _ _ _ _ _ _ _
        iexists (scM0_1.view.read (Elt F) (scM0_1.view.writes (Elt F) ((Memref.isWhole_whole cc0_scratch1).unread d1) (kernelRun_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) scM0_1 (Memref.isWhole_whole _) h0 h1 h2 (iblk m c 0 t0) (iblk m c 1 t0) (iblk m c 2 t0) (iblk m c 3 t0) (iblk m c 4 t0) (iblk m c 5 t0)).2.2.1))
        isplitr
        · ipureintro
          intro y hy
          have hy' : (y 0).val < 400 := by simpa using hy
          refine (s1A_in c _ _ _ _ _ _ _ _ _ _ _ _ _ _ _ _ _ _ _ h0 h1 h2 _ _ _ _ _ _ d1 0 ho y ⟨(y 0).val, hy'⟩ ⟨(y 1).val, (y 1).isLt⟩ (by simp) rfl).trans ?_
          exact (Zv_at m c t0 (by show (0 : ℕ) < 25; norm_num) y ⟨(y 0).val, hy'⟩ ⟨(y 1).val, (y 1).isLt⟩ (by simp) rfl).symm
        · unfold owns; iexists _; isplitr
          swap; · iexact HS1
          ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact outA_eq c _ _ _ _ _ _ _ _ _ _ _ _ _ _ _ _ _ _ _ h0 h1 h2 _ _ _ _ _ _ _
  · by_cases hlt : t.val < 25
    · -- a later point of phase 0
      have h0 : ¬cond0_0 (grid0.coords t) := fun h => hz ((hcond0_0 t).mp h)
      have h1 : cond0_1 (grid0.coords t) := (hcond0_1 t).mpr hlt
      have h2 : ¬cond0_2 (grid0.coords t) := fun h => absurd ((hcond0_2 t).mp h) (by omega)
      have ho : k0_off1 (grid0.coords t) = ![400 * t.val, 0] := hoff1 t hlt
      rw [PhiS_castSucc m c t, PhiS_pos m c _ _ hz]
      rw [show out6 m c t = k0_pay4 (iblk m c 1 t) (Yv m c) (iblk m c 3 t) (iblk m c 4 t) from if_pos hlt]
      iintro ⟨⟨⟨HS0, ⟨%d1, %hd1, HS1⟩⟩, Hg⟩, Ho, ⟨%d0, H0⟩, ⟨%e1, H1⟩, ⟨%d2, H2⟩, ⟨%d3, H3⟩, ⟨%d4, H4⟩, ⟨%d5, H5⟩, ⟨%d6, H6⟩⟩
      iapply ((kernelRun_B c (grid0.coords t) _ _ _ _ _ _ _ _ _ _ _ _ _ _ _ _ _ _ h0 h1 h2 (iblk m c 0 t) (iblk m c 1 t) (iblk m c 2 t) (iblk m c 3 t) (iblk m c 4 t) (iblk m c 5 t) (Yv m c)).2.2 d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%f6, H6⟩, HS0, HS1⟩
      isplitl [HS0 HS1 Hg]
      · isplitl [HS0 HS1]
        · isplitl [HS0]
          · iexact HS0
          iexists (scM0_1.view.read (Elt F) (scM0_1.view.writes (Elt F) ((Memref.isWhole_whole cc0_scratch1).unread d1) (kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 h2 (iblk m c 0 t) (iblk m c 1 t) (iblk m c 2 t) (iblk m c 3 t) (iblk m c 4 t) (iblk m c 5 t) (Yv m c)).2.1))
          isplitr
          · ipureintro
            intro y hy
            have hm : min t.val 25 = t.val := by omega
            have hm' : min (t.val + 1) 25 = t.val + 1 := by omega
            rw [hm'] at hy
            by_cases hin : (y 0).val < 400 * t.val
            · refine (s1B_out c _ _ _ _ _ _ _ _ _ _ _ _ _ _ _ _ _ _ _ h0 h1 h2 _ _ _ _ _ _ _ d1 (400 * t.val) ho y (Or.inl hin)).trans ?_
              exact hd1 y (by rw [hm]; exact hin)
            · have hp : (y 0).val - 400 * t.val < 400 := by omega
              refine (s1B_in c _ _ _ _ _ _ _ _ _ _ _ _ _ _ _ _ _ _ _ h0 h1 h2 _ _ _ _ _ _ _ d1 (400 * t.val) ho y ⟨(y 0).val - 400 * t.val, hp⟩ ⟨(y 1).val, (y 1).isLt⟩ (by simp; omega) rfl).trans ?_
              exact (Zv_at m c t hlt y ⟨(y 0).val - 400 * t.val, hp⟩ ⟨(y 1).val, (y 1).isLt⟩ (by simp; omega) rfl).symm
          · unfold owns; iexists _; isplitr
            swap; · iexact HS1
            ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact outB_eq c _ _ _ _ _ _ _ _ _ _ _ _ _ _ _ _ _ _ _ h0 h1 h2 _ _ _ _ _ _ _ _
    · -- phase 1: the second scratch is the whole z
      have h0 : ¬cond0_0 (grid0.coords t) := fun h => hz ((hcond0_0 t).mp h)
      have h1 : ¬cond0_1 (grid0.coords t) := fun h => hlt ((hcond0_1 t).mp h)
      have h2 : cond0_2 (grid0.coords t) := (hcond0_2 t).mpr (by omega)
      rw [PhiS_castSucc m c t, PhiS_pos m c _ _ hz]
      rw [show out6 m c t = k0_pay5 (iblk m c 1 t) (Zv m c) (iblk m c 5 t) from if_neg hlt]
      iintro ⟨⟨⟨HS0, ⟨%d1, %hd1, HS1⟩⟩, Hg⟩, Ho, ⟨%d0, H0⟩, ⟨%e1, H1⟩, ⟨%d2, H2⟩, ⟨%d3, H3⟩, ⟨%d4, H4⟩, ⟨%d5, H5⟩, ⟨%d6, H6⟩⟩
      obtain rfl : d1 = Zv m c := funext fun y => hd1 y (by
        have hm : min t.val 25 = 25 := by omega
        have : (y 0).val < 10000 := (y 0).isLt
        rw [hm]; omega)
      iapply ((kernelRun_C c (grid0.coords t) _ _ _ _ _ _ _ _ _ _ _ _ _ _ _ _ _ _ h0 h1 h2 (iblk m c 0 t) (iblk m c 1 t) (iblk m c 2 t) (iblk m c 3 t) (iblk m c 4 t) (iblk m c 5 t) (Yv m c) (Zv m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%f6, H6⟩, HS0, HS1⟩
      isplitl [HS0 HS1 Hg]
      · isplitl [HS0 HS1]
        · isplitl [HS0]
          · iexact HS0
          iexists (Zv m c)
          isplitr
          · ipureintro; intro y _; rfl
          · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact outC_eq c _ _ _ _ _ _ _ _ _ _ _ _ _ _ _ _ _ _ _ h0 h1 h2 _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA0_eq]
  iintro ⟨⟨HS0, ⟨%d1, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates; the region's arrays end at what the proof data say, every other
    unscoped buffer at what the host lines after the region compute from them. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any F. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.KI.Value.lean ====
/-
  The fused kernel's result array, read off its frame run.
  The output window is a [1, 400, 16] block of the [2, 10000, 16] array; at grid point t its block sits at block index
  (t / 25, t % 25, 0), and every point writes its block back. So entry (ph, r, q) of the array is written by point
  25·ph + r / 400 and by no other, and it ends holding what that point leaves in its block at (0, r % 400, q): the whole
  array is one function Gout of the points' output blocks. After the region @main keeps the second of the two
  [10000, 16] planes (the slice [1:2, 0:10000, 0:16]) and drops the unit axis: the result is, at (r, q), Gout at (1, r, q).
-/
import proofs.«128424_g90108413870386_cont_sun_c4_37_9_alg».proof.Proof.KI.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The output array as one function -/

/-- The whole [2, 10000, 16] output array: entry (ph, r, q) is what point 25·ph + r / 400 leaves in its block at
    (0, r % 400, q). -/
def Gout (c : Dev nD) : S2x10000x16.Idx → Elt F .f32 := fun i =>
  out6 m c (pt (25 * (i 0).val + (i 1).val / 400) (by
      have h0 : (i 0).val < 2 := (i 0).isLt
      have h1 : (i 1).val < 10000 := (i 1).isLt
      omega))
    (ValueIdx.ix3 (0 : Fin 1) (⟨(i 1).val % 400, Nat.mod_lt _ (by norm_num)⟩ : Fin 400) (⟨(i 2).val, (i 2).isLt⟩ : Fin 16))

/-- Gout at plane t / 25, row 400·(t % 25) + y₁, column y₂ is point t's block at y. -/
theorem Gout_at (c : Dev nD) (t : Fin cfg0.N) (i : S2x10000x16.Idx) (y : S1x400x16.Idx)
    (h0 : (i 0).val = t.val / 25) (h1 : (i 1).val = 400 * (t.val % 25) + (y 1).val) (h2 : (i 2).val = (y 2).val) :
    Gout m c i = out6 m c t y := by
  unfold Gout
  have ht : t.val < 50 := val_lt t
  have hy0 : (y 0).val < 1 := (y 0).isLt
  have hy1 : (y 1).val < 400 := (y 1).isLt
  have e1 : pt (25 * (i 0).val + (i 1).val / 400) (by
      have h0 : (i 0).val < 2 := (i 0).isLt
      have h1 : (i 1).val < 10000 := (i 1).isLt
      omega) = t := Fin.ext (by
    show 25 * (i 0).val + (i 1).val / 400 = t.val
    omega)
  have e2 : (ValueIdx.ix3 (0 : Fin 1) (⟨(i 1).val % 400, Nat.mod_lt _ (by norm_num)⟩ : Fin 400) (⟨(i 2).val, (i 2).isLt⟩ : Fin 16)
      : S1x400x16.Idx) = y := funext fun a => Fin.ext (by
    match a with
    | ⟨0, _⟩ => show 0 = (y 0).val; omega
    | ⟨1, _⟩ => show (i 1).val % 400 = (y 1).val; omega
    | ⟨2, _⟩ => exact h2)
  rw [e1, e2]

/-! ## From blocks to the array -/

/-- The output window's block index at point t, decided over the 50 grid points. -/
theorem index6 : ∀ t : Fin cfg0.N, win0_6.index t (0 : Fin 3) = t.val / 25 ∧ win0_6.index t (1 : Fin 3) = t.val % 25
    ∧ win0_6.index t (2 : Fin 3) = 0 :=
  (by decide +kernel : ∀ t : Fin grid0.N, _)

/-- What point t writes back is block t of Gout. -/
theorem flushed_eq (c : Dev nD) (t : Fin cfg0.N) :
    (dats m 0 c).flushed 6 t = ((cfg0.win 6).blk t).view.read (Elt F) (Gout m c) := by
  show (cfg0.win 6).cut (grid0.coords t) ((dats m 0 c).after 6 t) = _
  rw [after0_6]
  obtain ⟨e0, e1, e2⟩ := index6 t
  funext j
  have hj0 : (j 0).val < 1 := (j 0).isLt
  refine (Gout_at m c t (((cfg0.win 6).blk t).view.emb j) ((cfg0.win 6).xinj (grid0.coords t) j) ?_ ?_ ?_).symm
  · show win0_6.index t (0 : Fin 3) * 1 + 1 * (j 0).val = t.val / 25
    omega
  · show win0_6.index t (1 : Fin 3) * 400 + 1 * (j 1).val = 400 * (t.val % 25) + (j 1).val
    omega
  · show win0_6.index t (2 : Fin 3) * 16 + 1 * (j 2).val = (j 2).val
    omega

/-- An index of the array is in point t's block iff each coordinate is in the block's range on its axis. -/
theorem mem_blk6 (t : Fin cfg0.N) (i : S2x10000x16.Idx) :
    i ∈ ((cfg0.win 6).blk t).view.set ↔ ∀ a : Fin 3, win0_6.index t a * S1x400x16.size a ≤ (i a).val
      ∧ (i a).val < win0_6.index t a * S1x400x16.size a + S1x400x16.size a := by
  show i ∈ ((View.whole main_v2).slice (win0_6.rect t)).set ↔ _
  rw [View.set_slice_whole, Rect.mem_set_unit]
  exact Iff.rfl

/-- The output array after the region is Gout: the blocks tile it, (ph, r, q) lying in the block of point 25·ph + r / 400. -/
theorem final (c : Dev nD) : (dats m 0 c).arrAt 6 cfg0.N = Gout m c :=
  (dats m 0 c).arrAt_eq_of_cover 6 (Gout m c) (fun t _ => flushed_eq m c t) fun i => by
    have h0 : (i 0).val < 2 := (i 0).isLt
    have h1 : (i 1).val < 10000 := (i 1).isLt
    have h2 : (i 2).val < 16 := (i 2).isLt
    refine ⟨pt (25 * (i 0).val + (i 1).val / 400) (by omega), flush0_6 _, ?_⟩
    rw [mem_blk6]
    obtain ⟨e0, e1, e2⟩ := index6 (pt (25 * (i 0).val + (i 1).val / 400) (by omega))
    rw [pt_val] at e0 e1
    intro a
    match a with
    | ⟨0, _⟩ =>
      show win0_6.index _ (0 : Fin 3) * 1 ≤ (i 0).val ∧ (i 0).val < win0_6.index _ (0 : Fin 3) * 1 + 1
      rw [e0]; omega
    | ⟨1, _⟩ =>
      show win0_6.index _ (1 : Fin 3) * 400 ≤ (i 1).val ∧ (i 1).val < win0_6.index _ (1 : Fin 3) * 400 + 400
      rw [e1]; omega
    | ⟨2, _⟩ =>
      show win0_6.index _ (2 : Fin 3) * 16 ≤ (i 2).val ∧ (i 2).val < win0_6.index _ (2 : Fin 3) * 16 + 16
      rw [e2]; omega

/-! ## The lines after the region -/

/-- The slice [1:2, 0:10000, 0:16] recast to [10000, 16], over any contents of the buffers: at (r, q) the sliced array
    at (1, r, q). -/
theorem tail_of (W : Valuation τ sig (Elt F)) :
    StableHlo.after (hostOps1 (F := F)) W (Proc.devRef .tc main_v4)
      = fun j : S10000x16.Idx => (W (Proc.devRef .tc main_v2) : S2x10000x16.Idx → Elt F .f32)
          (ValueIdx.ix3 (1 : Fin 2) (⟨(j 0).val, (j 0).isLt⟩ : Fin 10000) (⟨(j 1).val, (j 1).isLt⟩ : Fin 16)) := by
  after_results
  refine funext fun (j : S10000x16.Idx) => ?_
  show shapeCast S10000x16 (extractStridedSlice S1x10000x16 ![1, 0, 0] (W (Proc.devRef .tc main_v2))
    slices_S2x10000x16_S1x10000x16_1_0_0) shapeCasts_S1x10000x16_S10000x16 j = _
  refine (shapeCast_apply _ _ j (ValueIdx.ix3 (0 : Fin 1) (⟨(j 0).val, (j 0).isLt⟩ : Fin 10000) (⟨(j 1).val, (j 1).isLt⟩ : Fin 16)) ?_).trans ?_
  · refine (Shape.rowMajor_val_three _).trans (Eq.trans ?_ (Shape.rowMajor_val_two (d := ![10000, 16]) j).symm)
    show (0 * 10000 + (j 0).val) * 16 + (j 1).val = (j 0).val * 16 + (j 1).val
    omega
  · refine extractStridedSlice_apply _ _ _ _ (ValueIdx.ix3 (1 : Fin 2) (⟨(j 0).val, (j 0).isLt⟩ : Fin 10000) (⟨(j 1).val, (j 1).isLt⟩ : Fin 16)) fun a => ?_
    match a with
    | ⟨0, _⟩ => rfl
    | ⟨1, _⟩ => show (j 0).val = 0 + (j 0).val; omega
    | ⟨2, _⟩ => show (j 1).val = 0 + (j 1).val; omega

/-- @main's result: at (r, q), Gout at (1, r, q). -/
theorem tail (c : Dev nD) :
    Pipeline.afterTail₀ cfgs (dats m) 0 (V0 m) [hostOps1] c main_v4
      = fun j : S10000x16.Idx => Gout m c
          (ValueIdx.ix3 (1 : Fin 2) (⟨(j 0).val, (j 0).isLt⟩ : Fin 10000) (⟨(j 1).val, (j 1).isLt⟩ : Fin 16)) := by
  unfold Pipeline.afterTail₀
  show StableHlo.after hostOps1 _ (Proc.devRef .tc main_v4) = _
  refine (tail_of _).trans (funext fun j => ?_)
  exact congrFun ((Pipeline.withArrays_arr spec0 launch0.win.arr_inj c _ _ 6).trans (final m c)) _

/-! ## The run, read -/

/-- Every weakly fair execution of @main ends with the result buffer at Gout's second plane and the six arguments
    unchanged. -/
theorem run_value : θ_run defs (onTc (τ := τ) (main (F := F))) ⟨m, fun _ => 0, ρ⟩ (fun r => ∀ c : Dev nD,
      r.2.mem ((c.tc : Thread nD τ).loc main_v4) = (fun j : S10000x16.Idx => Gout m c
          (ValueIdx.ix3 (1 : Fin 2) (⟨(j 0).val, (j 0).isLt⟩ : Fin 10000) (⟨(j 1).val, (j 1).isLt⟩ : Fin 16)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v4 (Pipeline.mem_restRefs_of main_v4 (by decide) (by decide))).trans (tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c))⟩)
    (run_main m ρ)

end Cert.KernelIdeal.Hand

end
-- ==== Proof.KI.Blocks.lean ====
/-
  The windows' blocks read at coordinates: what each input window of the kernel holds at a grid point, entry by entry,
  in terms of the arrays the program was launched with.
  • Windows 0, 2 and 4 (the features and the two weight matrices) hold their whole array at every point.
  • Window 1 holds, at point `t`, the block of 400 adjacency rows starting at row 400 · (t mod 25): the row block's index
    is the grid's second coordinate.
  • Windows 3 and 5 hold the two bias vectors recast as rows [1, 32] and [1, 16] before the region is entered.
-/
import proofs.«128424_g90108413870386_cont_sun_c4_37_9_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Blocks

open Cert.KernelIdeal Cert.KernelIdeal.Gen Idealize.ShloMosaic Idealize.ShloMosaic.ValueIdx
open Idealize.ShloMosaic.TcCoe Idealize.SL.Sem Idealize.ShloMosaic.StableHlo

variable {F : FTy → Type} [FloatOps F]
variable (m : (ℓ : Loc nD τ sig) → Buf (Elt F) ℓ)

/-! ## The printed index maps over the grid -/

/-- Window 0's block index is (0, 0) at every point. -/
theorem idx0 : ∀ t : Fin cfg0.N, win0_0.index t (0 : Fin 2) = 0 ∧ win0_0.index t (1 : Fin 2) = 0 :=
  (by decide +kernel : ∀ t : Fin grid0.N, _)
/-- Window 1's block index is (t mod 25, 0): the grid's second coordinate picks the row block. -/
theorem idx1 : ∀ t : Fin cfg0.N, win0_1.index t (0 : Fin 2) = t.val % 25 ∧ win0_1.index t (1 : Fin 2) = 0 :=
  (by decide +kernel : ∀ t : Fin grid0.N, _)
/-- Window 2's block index is (0, 0) at every point. -/
theorem idx2 : ∀ t : Fin cfg0.N, win0_2.index t (0 : Fin 2) = 0 ∧ win0_2.index t (1 : Fin 2) = 0 :=
  (by decide +kernel : ∀ t : Fin grid0.N, _)
/-- Window 3's block index is (0, 0) at every point. -/
theorem idx3 : ∀ t : Fin cfg0.N, win0_3.index t (0 : Fin 2) = 0 ∧ win0_3.index t (1 : Fin 2) = 0 :=
  (by decide +kernel : ∀ t : Fin grid0.N, _)
/-- Window 4's block index is (0, 0) at every point. -/
theorem idx4 : ∀ t : Fin cfg0.N, win0_4.index t (0 : Fin 2) = 0 ∧ win0_4.index t (1 : Fin 2) = 0 :=
  (by decide +kernel : ∀ t : Fin grid0.N, _)
/-- Window 5's block index is (0, 0) at every point. -/
theorem idx5 : ∀ t : Fin cfg0.N, win0_5.index t (0 : Fin 2) = 0 ∧ win0_5.index t (1 : Fin 2) = 0 :=
  (by decide +kernel : ∀ t : Fin grid0.N, _)

/-! ## The whole-array windows -/

/-- Window 0's block is the features array, whole. -/
theorem blk0 (c : Dev nD) (t : Fin cfg0.N) (i : Fin 10000) (j : Fin 128) :
    iblk m c 0 t (ix2 i j) = m ((c.tc : Thread nD τ).loc main_arg0) (ix2 i j) := by
  show V m c main_arg0 (((cfg0.win 0).blk t).view.emb (ix2 i j)) = _
  rw [V_main_arg0]
  refine congrArg _ ?_
  obtain ⟨e0, e1⟩ := idx0 t
  funext a; apply Fin.ext
  match a with
  | ⟨0, _⟩ => show win0_0.index t (0 : Fin 2) * 10000 + 1 * i.val = i.val; omega
  | ⟨1, _⟩ => show win0_0.index t (1 : Fin 2) * 128 + 1 * j.val = j.val; omega

/-- Window 2's block is the first weight matrix, whole. -/
theorem blk2 (c : Dev nD) (t : Fin cfg0.N) (i : Fin 128) (j : Fin 32) :
    iblk m c 2 t (ix2 i j) = m ((c.tc : Thread nD τ).loc main_arg2) (ix2 i j) := by
  show V m c main_arg2 (((cfg0.win 2).blk t).view.emb (ix2 i j)) = _
  rw [V_main_arg2]
  refine congrArg _ ?_
  obtain ⟨e0, e1⟩ := idx2 t
  funext a; apply Fin.ext
  match a with
  | ⟨0, _⟩ => show win0_2.index t (0 : Fin 2) * 128 + 1 * i.val = i.val; omega
  | ⟨1, _⟩ => show win0_2.index t (1 : Fin 2) * 32 + 1 * j.val = j.val; omega

/-- Window 4's block is the second weight matrix, whole. -/
theorem blk4 (c : Dev nD) (t : Fin cfg0.N) (i : Fin 32) (j : Fin 16) :
    iblk m c 4 t (ix2 i j) = m ((c.tc : Thread nD τ).loc main_arg4) (ix2 i j) := by
  show V m c main_arg4 (((cfg0.win 4).blk t).view.emb (ix2 i j)) = _
  rw [V_main_arg4]
  refine congrArg _ ?_
  obtain ⟨e0, e1⟩ := idx4 t
  funext a; apply Fin.ext
  match a with
  | ⟨0, _⟩ => show win0_4.index t (0 : Fin 2) * 32 + 1 * i.val = i.val; omega
  | ⟨1, _⟩ => show win0_4.index t (1 : Fin 2) * 16 + 1 * j.val = j.val; omega

/-! ## The adjacency row block -/

/-- Row `p` of the block at point `t` is a row of the adjacency matrix. -/
theorem row_lt (t : Fin cfg0.N) (p : Fin 400) : 400 * (t.val % 25) + p.val < 10000 := by
  have := p.isLt
  have := Nat.mod_lt t.val (by decide : 0 < 25)
  omega

/-- Window 1's block at point `t` is rows 400 · (t mod 25), …, 400 · (t mod 25) + 399 of the adjacency matrix. -/
theorem blk1 (c : Dev nD) (t : Fin cfg0.N) (p : Fin 400) (q : Fin 10000) :
    iblk m c 1 t (ix2 p q)
      = m ((c.tc : Thread nD τ).loc main_arg1) (ix2 (⟨400 * (t.val % 25) + p.val, row_lt t p⟩ : Fin 10000) q) := by
  show V m c main_arg1 (((cfg0.win 1).blk t).view.emb (ix2 p q)) = _
  rw [V_main_arg1]
  refine congrArg _ ?_
  obtain ⟨e0, e1⟩ := idx1 t
  funext a; apply Fin.ext
  match a with
  | ⟨0, _⟩ => show win0_1.index t (0 : Fin 2) * 400 + 1 * p.val = 400 * (t.val % 25) + p.val; omega
  | ⟨1, _⟩ => show win0_1.index t (1 : Fin 2) * 10000 + 1 * q.val = q.val; omega

/-! ## The bias rows -/

/-- When the region is entered, the first bias row's array holds the first bias vector recast as [1, 32]. -/
theorem V_main_v0 (c : Dev nD) :
    (V m c main_v0 : S1x32.Idx → Elt F .f32)
      = shapeCast S1x32 (m ((c.tc : Thread nD τ).loc main_arg3) : S32.Idx → Elt F .f32) shapeCasts_S32_S1x32 := by
  show StableHlo.after hostOps0 (fun b => m (c, b)) (Proc.devRef .tc main_v0) = _
  after_results
  rfl

/-- When the region is entered, the second bias row's array holds the second bias vector recast as [1, 16]. -/
theorem V_main_v1 (c : Dev nD) :
    (V m c main_v1 : S1x16.Idx → Elt F .f32)
      = shapeCast S1x16 (m ((c.tc : Thread nD τ).loc main_arg5) : S16.Idx → Elt F .f32) shapeCasts_S16_S1x16 := by
  show StableHlo.after hostOps0 (fun b => m (c, b)) (Proc.devRef .tc main_v1) = _
  after_results
  rfl

/-- Window 3's block is the first bias vector as a row. -/
theorem blk3 (c : Dev nD) (t : Fin cfg0.N) (k : Fin 32) :
    iblk m c 3 t (ix2 (0 : Fin 1) k) = m ((c.tc : Thread nD τ).loc main_arg3) (ix1 k) := by
  show (V m c main_v0 : S1x32.Idx → Elt F .f32) (((cfg0.win 3).blk t).view.emb (ix2 (0 : Fin 1) k)) = _
  rw [V_main_v0]
  obtain ⟨e0, e1⟩ := idx3 t
  have he : ((cfg0.win 3).blk t).view.emb (ix2 (0 : Fin 1) k) = (ix2 (0 : Fin 1) k : S1x32.Idx) := by
    funext a; apply Fin.ext
    match a with
    | ⟨0, _⟩ => show win0_3.index t (0 : Fin 2) * 1 + 1 * 0 = 0; omega
    | ⟨1, _⟩ => show win0_3.index t (1 : Fin 2) * 32 + 1 * k.val = k.val; omega
  rw [he]
  exact shapeCast_a_1a_apply _ shapeCasts_S32_S1x32 (0 : Fin 1) k

/-- Window 5's block is the second bias vector as a row. -/
theorem blk5 (c : Dev nD) (t : Fin cfg0.N) (k : Fin 16) :
    iblk m c 5 t (ix2 (0 : Fin 1) k) = m ((c.tc : Thread nD τ).loc main_arg5) (ix1 k) := by
  show (V m c main_v1 : S1x16.Idx → Elt F .f32) (((cfg0.win 5).blk t).view.emb (ix2 (0 : Fin 1) k)) = _
  rw [V_main_v1]
  obtain ⟨e0, e1⟩ := idx5 t
  have he : ((cfg0.win 5).blk t).view.emb (ix2 (0 : Fin 1) k) = (ix2 (0 : Fin 1) k : S1x16.Idx) := by
    funext a; apply Fin.ext
    match a with
    | ⟨0, _⟩ => show win0_5.index t (0 : Fin 2) * 1 + 1 * 0 = 0; omega
    | ⟨1, _⟩ => show win0_5.index t (1 : Fin 2) * 16 + 1 * k.val = k.val; omega
  rw [he]
  exact shapeCast_a_1a_apply _ shapeCasts_S16_S1x16 (0 : Fin 1) k

end Cert.KernelIdeal.Blocks

end
-- ==== Proof.Spec.lean ====
/-
  The two-layer graph convolution both programs compute, as plain functions on matrices of extended reals.
  A matrix is a function of a two-coordinate index; a bias is a function of the column.
  • `mm l r`        : the matrix product, entry (i, j) the sum over k of l(i,k) · r(k,j);
  • `layer a t b`   : one convolution layer, max (a·t + b, 0) entry by entry, the bias added along each row;
  • `rowmax g i`    : the largest entry of row i (the fold of max from minus infinity);
  • `lsm g`         : the row-wise log-softmax, (g − rowmax) − log Σ exp (g − rowmax);
  • `out`           : log-softmax of the second layer over the first layer's result times W2.
  `layer` and `lsm` act row by row, so they may be applied to a block of rows of the adjacency matrix
  (`rows`): that is how a row block of the result is the same block of the whole result.
-/
import Idealize.ShloMosaic.PureOps.Ideal
import Idealize.ShloMosaic.Lib.ValueIdx

noncomputable section

namespace Cert.Gcn

open Idealize.ShloMosaic Idealize.ShloMosaic.ValueIdx

/-- A matrix of extended reals with `a` rows and `b` columns. -/
abbrev Mat (a b : ℕ) : Type := (⟨2, ![a, b]⟩ : Shape).Idx → EReal

/-- Minus infinity and zero as the float words both programs spell them with. -/
abbrev NINF : EReal := Ideal.ofBits .f32 0xFF800000#32
abbrev ZERO : EReal := Ideal.ofBits .f32 0x00000000#32

/-- The matrix product. -/
def mm {a k b : ℕ} (l : Mat a k) (r : Mat k b) : Mat a b :=
  fun i => ∑ j : Fin k, l (ix2 (i 0) j) * r (ix2 j (i 1))

/-- One layer: max (a·t + bias, 0), the bias added to every row. -/
def layer {a n c : ℕ} (adj : Mat a n) (t : Mat n c) (bias : Fin c → EReal) : Mat a c :=
  fun i => max (mm adj t i + bias (i 1)) ZERO

/-- The largest entry of row `i`. -/
def rowmax {a c : ℕ} (g : Mat a c) (i : Fin a) : EReal :=
  (Finset.univ : Finset (Fin c)).fold max NINF (fun k => g (ix2 i k))

/-- Row-wise log-softmax. -/
def lsm {a c : ℕ} (g : Mat a c) : Mat a c :=
  fun i => (g i - rowmax g (i 0)) - Ideal.log (∑ k : Fin c, Ideal.exp (g (ix2 (i 0) k) - rowmax g (i 0)))

/-- The hidden features after the first layer, multiplied by the second weight matrix. -/
def hidden {n f h c : ℕ} (x : Mat n f) (adj : Mat n n) (w1 : Mat f h) (b1 : Fin h → EReal) (w2 : Mat h c) : Mat n c :=
  mm (layer adj (mm x w1) b1) w2

/-- The network's result. -/
def out {n f h c : ℕ} (x : Mat n f) (adj : Mat n n) (w1 : Mat f h) (b1 : Fin h → EReal) (w2 : Mat h c)
    (b2 : Fin c → EReal) : Mat n c :=
  lsm (layer adj (hidden x adj w1 b1 w2) b2)

/-- Rows `off, off+1, …, off+a-1` of a matrix. -/
def rows {n k : ℕ} (a off : ℕ) (h : off + a ≤ n) (m : Mat n k) : Mat a k :=
  fun i => m (ix2 ⟨off + (i 0).val, by have : (i 0).val < a := (i 0).isLt; omega⟩ (i 1))

theorem mm_rows {n k b : ℕ} (a off : ℕ) (h : off + a ≤ n) (l : Mat n k) (r : Mat k b) (p : Fin a) (q : Fin b) :
    mm (rows a off h l) r (ix2 p q) = mm l r (ix2 ⟨off + p.val, by have := p.isLt; omega⟩ q) := rfl

theorem layer_rows {n m c : ℕ} (a off : ℕ) (h : off + a ≤ n) (adj : Mat n m) (t : Mat m c) (bias : Fin c → EReal)
    (p : Fin a) (q : Fin c) :
    layer (rows a off h adj) t bias (ix2 p q) = layer adj t bias (ix2 ⟨off + p.val, by have := p.isLt; omega⟩ q) := rfl

theorem lsm_layer_rows {n m c : ℕ} (a off : ℕ) (h : off + a ≤ n) (adj : Mat n m) (t : Mat m c) (bias : Fin c → EReal)
    (p : Fin a) (q : Fin c) :
    lsm (layer (rows a off h adj) t bias) (ix2 p q)
      = lsm (layer adj t bias) (ix2 ⟨off + p.val, by have := p.isLt; omega⟩ q) := rfl

end Cert.Gcn

end
-- ==== Proof.LibKeepdims.lean ====
/-
  Layout steps and single-axis reductions of small-rank arrays read at an index given by coordinates — a general
  module: every lemma is general in the extents, and the layout lemmas in the element type.
  Layout:
  • `shapeCast_a_a1_apply`: a vector recast as a column, `[a] → [a, 1]`, at `(i, u)` is the vector at `i`;
  • `broadcastTo_a1_ab_apply`: a column broadcast across the lanes, `[a, 1] → [a, b]`, at `(i, j)` is the column at `(i, 0)`;
  • `broadcastTo_11_ab_apply`: a one-entry matrix broadcast to `[a, b]` reads its one entry everywhere;
  • `shapeCast_ab_a1b_apply`: a matrix given a middle unit axis, `[a, b] → [a, 1, b]`, at `(i, u, k)` is the matrix at `(i, k)`;
  • `broadcastTo_a1c_abc_apply`: `[a, 1, c] → [a, b, c]` at `(i, j, k)` is the operand at `(i, 0, k)`.
  Reductions over one axis, at the exact values: the source index over a result index with coordinate `k` on the reduced
  axis (`lift_last_ab`, `lift_last_abc`, `lift_mid_abc`), and with them
  • `multiReduction_add_last_ab`, `multiReduction_add_last_abc`, `multiReduction_add_mid_abc`: an add reduction read as the
    sum over the reduced coordinate;
  • `multiReduction_max_last_abc`: a maximum reduction along the last axis read as the fold of `max` from the accumulator.
-/
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

namespace Cert.LibKeepdims

open Idealize.ShloMosaic Idealize.ShloMosaic.ValueIdx

section Layout
variable {α : Type}

/-- A vector recast as a column reads, at `(i, u)`, its entry `i`: the unit axis contributes nothing to the row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast across the lanes reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A one-entry matrix broadcast to `[a, b]` reads its one entry at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]

/-- A matrix given a middle unit axis reads, at `(i, u, k)`, the matrix at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

end Layout

section Lift

/-- Reducing `[a, b]` over its last axis: over the result index `i`, coordinate `k` on the reduced axis is `(i, k)`. -/
theorem lift_last_ab {a b : ℕ} (h : (⟨2, ![a, b]⟩ : Shape).Reduces [1] ⟨1, ![a]⟩) (i : Fin a) (k : Fin b) :
    h.lift (ix1 i) k = ix2 i k := by
  funext ax
  apply Fin.ext
  match ax with
  | ⟨0, _⟩ => rfl
  | ⟨1, _⟩ => rfl

/-- Reducing `[a, b, c]` over its last axis: over `(i, j)`, coordinate `k` on the reduced axis is `(i, j, k)`. -/
theorem lift_last_abc {a b c : ℕ} (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Reducing `[a, b, c]` over its middle axis: over `(i, k)`, coordinate `j` on the reduced axis is `(i, j, k)`. -/
theorem lift_mid_abc {a b c : ℕ} (h : (⟨3, ![a, b, c]⟩ : Shape).Reduces [1] ⟨2, ![a, c]⟩) (i : Fin a) (k : Fin c) (j : Fin b) :
    h.lift (ix2 i k) j = ix3 i j k := by
  funext ax
  apply Fin.ext
  match ax with
  | ⟨0, _⟩ => rfl
  | ⟨1, _⟩ => rfl
  | ⟨2, _⟩ => rfl

end Lift

section Reductions
variable {φ : FTy}

/-- An add reduction of `[a, b]` along its last axis, at the exact values, read at `i`: the row's sum. -/
theorem multiReduction_add_last_ab {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last_ab h i k))

/-- An add reduction of `[a, b, c]` along its last axis, at the exact values, read at `(i, j)`. -/
theorem multiReduction_add_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last_abc h i j k))

/-- An add reduction of `[a, b, c]` along its middle axis, at the exact values, read at `(i, k)`. -/
theorem multiReduction_add_mid_abc {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_mid_abc h i k j))

/-- A maximum reduction of `[a, b, c]` along its last axis, at the exact values, read at `(i, j)`: the fold of `max` from
    the accumulator's value over the row. -/
theorem multiReduction_max_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_last_abc h i j k)))

end Reductions

end Cert.LibKeepdims
-- ==== Proof.LibRowMax.lean ====
/-
  A maximum reduction of an [a, b] array along its last axis, at the exact values, read at row i: the fold of `max`
  from the accumulator's value over the row's entries. A general module: general in the extents and the format.
-/
import Idealize.ShloMosaic.Lib.ValueIdx
import Idealize.ShloMosaic.PureOps.Reduce
import Idealize.ShloMosaic.PureOps.Ideal.Laws

namespace Cert.LibRowMax

open Idealize.ShloMosaic Idealize.ShloMosaic.ValueIdx

/-- Reducing `[a, b]` over its last axis: over the result index `i`, coordinate `k` on the reduced axis is `(i, k)`. -/
theorem lift_last_ab {a b : ℕ} (h : (⟨2, ![a, b]⟩ : Shape).Reduces [1] ⟨1, ![a]⟩) (i : Fin a) (k : Fin b) :
    h.lift (ix1 i) k = ix2 i k := by
  funext ax
  apply Fin.ext
  match ax with
  | ⟨0, _⟩ => rfl
  | ⟨1, _⟩ => rfl

/-- A maximum reduction of `[a, b]` along its last axis, at the exact values, read at `i`: the fold of `max` from the
    accumulator's value over the row. -/
theorem multiReduction_max_last_ab {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => (Finset.univ : Finset (Fin b)).fold max (Ideal.ofBits φ acc) f)
      (funext fun k => congrArg src (lift_last_ab h i k)))

end Cert.LibRowMax
-- ==== Proof.Payloads.lean ====
/-
  The kernel's arithmetic read at an index, at the exact values: each value the kernel stores is, entry by entry, the
  matching term of the two-layer graph convolution.
  • A matrix product into the zero accumulator, contracting the left operand's columns with the right operand's rows,
    is at (i, j) the sum over t of l(i,t) · r(t,j) (`matmul_zero_ix2`), instantiated for the four products of the kernel.
  • The first stored value is x · w (`pay1_apply`); the second, third and fourth are max (a · y + b, 0) · w
    (`pay2_apply`, `pay3_apply`, `pay4_apply`); the last is the row-wise log-softmax of max (a · z + b, 0) (`pay5_apply`).
  The changes of format are the identity at the exact values; the bias row is broadcast down the rows; the row maximum
  and the row sum are folds over the sixteen columns.
-/
import proofs.«128424_g90108413870386_cont_sun_c4_37_9_alg».proof.Proof.Gen.KernelIdeal.Skeleton
import proofs.«128424_g90108413870386_cont_sun_c4_37_9_alg».proof.Proof.Spec
import proofs.«128424_g90108413870386_cont_sun_c4_37_9_alg».proof.Proof.LibKeepdims
import proofs.«128424_g90108413870386_cont_sun_c4_37_9_alg».proof.Proof.LibRowMax
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Pay

open Idealize.ShloMosaic Idealize.ShloMosaic.ValueIdx Cert.KernelIdeal Cert.KernelIdeal.Gen
open scoped BigOperators

/-! ## A matrix product into the zero accumulator, read at an index -/

/-- A product whose dimension numbers contract one axis of extent `k`, read the left operand at (row of the result,
    contraction coordinate) and the right at (contraction coordinate, column of the result): at `(i, j)` it is the sum
    over `t` of `l (i, t) * r (t, j)`. -/
theorem matmul_zero_ix2 {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl0 : ∀ (i : (⟨2, ![a, b]⟩ : Shape).Idx) (q : D.contr.Idx), (D.lhsIdx i q 0).val = (i 0).val)
    (hl1 : ∀ (i : (⟨2, ![a, b]⟩ : Shape).Idx) (q : D.contr.Idx), (D.lhsIdx i q 1).val = (q ⟨0, by omega⟩).val)
    (hr0 : ∀ (i : (⟨2, ![a, b]⟩ : Shape).Idx) (q : D.contr.Idx), (D.rhsIdx i q 0).val = (q ⟨0, by omega⟩).val)
    (hr1 : ∀ (i : (⟨2, ![a, b]⟩ : Shape).Idx) (q : D.contr.Idx), (D.rhsIdx i q 1).val = (i 1).val)
    (prec : Option ContractPrecision) (l : FVec Ideal ⟨2, ![a, k]⟩ φ₁) (r : FVec Ideal ⟨2, ![k, b]⟩ φ₂)
    (i : Fin a) (j : Fin b) :
    FloatOps.matmul D prec l r (constant (F := Ideal) ⟨2, ![a, b]⟩ .f32 0x00000000#32) (ix2 i j)
      = ∑ t : Fin k, l (ix2 i t) * r (ix2 t j) := by
  rw [Ideal.matmul_constant_zero_apply, ← Equiv.sum_comp (contrEquiv1 D k hr hs).symm]
  refine Finset.sum_congr rfl fun t _ => ?_
  have ht := contrEquiv1_symm_val D k hr hs t
  have el : D.lhsIdx (ix2 i j) ((contrEquiv1 D k hr hs).symm t) = ix2 i t := funext fun c => Fin.ext (by
    match c with
    | ⟨0, _⟩ => exact hl0 _ _
    | ⟨1, _⟩ => exact (hl1 _ _).trans ht)
  have er : D.rhsIdx (ix2 i j) ((contrEquiv1 D k hr hs).symm t) = ix2 t j := funext fun c => Fin.ext (by
    match c with
    | ⟨0, _⟩ => exact (hr0 _ _).trans ht
    | ⟨1, _⟩ => exact hr1 _ _)
  rw [el, er]

/-! ## The kernel's four products -/

/-- The kernel's product of the features times the first weight matrix, at `(i, j)`. -/
theorem mmXW_apply {φ₁ φ₂ : FTy} (l : FVec Ideal S10000x128 φ₁) (r : FVec Ideal S128x32 φ₂) (i : Fin 10000) (j : Fin 32) :
    FloatOps.matmul dot_S10000x128_S128x32_S10000x32_1_0_0_1_n_n none l r (constant (F := Ideal) S10000x32 .f32 0x00000000#32) (ix2 i j)
      = ∑ t : Fin 128, l (ix2 i t) * r (ix2 t j) :=
  matmul_zero_ix2 dot_S10000x128_S128x32_S10000x32_1_0_0_1_n_n rfl rfl
    (fun i q => by
      unfold DotDims.lhsIdx
      rw [dif_neg (show ¬(0 : Fin S10000x128.rank) ∈ dot_S10000x128_S128x32_S10000x32_1_0_0_1_n_n.lhsBatch by decide),
        dif_pos (show (0 : Fin S10000x128.rank) ∈ dot_S10000x128_S128x32_S10000x32_1_0_0_1_n_n.lhsNonContracting by decide)]
      rfl)
    (fun i q => dot_S10000x128_S128x32_S10000x32_1_0_0_1_n_n.lhsIdx_val_of_single rfl i q)
    (fun i q => dot_S10000x128_S128x32_S10000x32_1_0_0_1_n_n.rhsIdx_val_of_single rfl i q)
    (fun i q => by
      unfold DotDims.rhsIdx
      rw [dif_neg (show ¬(1 : Fin S128x32.rank) ∈ dot_S10000x128_S128x32_S10000x32_1_0_0_1_n_n.rhsBatch by decide),
        dif_pos (show (1 : Fin S128x32.rank) ∈ dot_S10000x128_S128x32_S10000x32_1_0_0_1_n_n.rhsNonContracting by decide)]
      rfl)
    none l r i j

/-- The kernel's product of a block of adjacency rows times the first layer's input, at `(i, j)`. -/
theorem mmAY_apply {φ₁ φ₂ : FTy} (l : FVec Ideal S400x10000 φ₁) (r : FVec Ideal S10000x32 φ₂) (i : Fin 400) (j : Fin 32) :
    FloatOps.matmul dot_S400x10000_S10000x32_S400x32_1_0_0_1_n_n none l r (constant (F := Ideal) S400x32 .f32 0x00000000#32) (ix2 i j)
      = ∑ t : Fin 10000, l (ix2 i t) * r (ix2 t j) :=
  matmul_zero_ix2 dot_S400x10000_S10000x32_S400x32_1_0_0_1_n_n rfl rfl
    (fun i q => by
      unfold DotDims.lhsIdx
      rw [dif_neg (show ¬(0 : Fin S400x10000.rank) ∈ dot_S400x10000_S10000x32_S400x32_1_0_0_1_n_n.lhsBatch by decide),
        dif_pos (show (0 : Fin S400x10000.rank) ∈ dot_S400x10000_S10000x32_S400x32_1_0_0_1_n_n.lhsNonContracting by decide)]
      rfl)
    (fun i q => dot_S400x10000_S10000x32_S400x32_1_0_0_1_n_n.lhsIdx_val_of_single rfl i q)
    (fun i q => dot_S400x10000_S10000x32_S400x32_1_0_0_1_n_n.rhsIdx_val_of_single rfl i q)
    (fun i q => by
      unfold DotDims.rhsIdx
      rw [dif_neg (show ¬(1 : Fin S10000x32.rank) ∈ dot_S400x10000_S10000x32_S400x32_1_0_0_1_n_n.rhsBatch by decide),
        dif_pos (show (1 : Fin S10000x32.rank) ∈ dot_S400x10000_S10000x32_S400x32_1_0_0_1_n_n.rhsNonContracting by decide)]
      rfl)
    none l r i j

/-- The kernel's product of the hidden block times the second weight matrix, at `(i, j)`. -/
theorem mmHW_apply {φ₁ φ₂ : FTy} (l : FVec Ideal S400x32 φ₁) (r : FVec Ideal S32x16 φ₂) (i : Fin 400) (j : Fin 16) :
    FloatOps.matmul dot_S400x32_S32x16_S400x16_1_0_0_1_n_n none l r (constant (F := Ideal) S400x16 .f32 0x00000000#32) (ix2 i j)
      = ∑ t : Fin 32, l (ix2 i t) * r (ix2 t j) :=
  matmul_zero_ix2 dot_S400x32_S32x16_S400x16_1_0_0_1_n_n rfl rfl
    (fun i q => by
      unfold DotDims.lhsIdx
      rw [dif_neg (show ¬(0 : Fin S400x32.rank) ∈ dot_S400x32_S32x16_S400x16_1_0_0_1_n_n.lhsBatch by decide),
        dif_pos (show (0 : Fin S400x32.rank) ∈ dot_S400x32_S32x16_S400x16_1_0_0_1_n_n.lhsNonContracting by decide)]
      rfl)
    (fun i q => dot_S400x32_S32x16_S400x16_1_0_0_1_n_n.lhsIdx_val_of_single rfl i q)
    (fun i q => dot_S400x32_S32x16_S400x16_1_0_0_1_n_n.rhsIdx_val_of_single rfl i q)
    (fun i q => by
      unfold DotDims.rhsIdx
      rw [dif_neg (show ¬(1 : Fin S32x16.rank) ∈ dot_S400x32_S32x16_S400x16_1_0_0_1_n_n.rhsBatch by decide),
        dif_pos (show (1 : Fin S32x16.rank) ∈ dot_S400x32_S32x16_S400x16_1_0_0_1_n_n.rhsNonContracting by decide)]
      rfl)
    none l r i j

/-- The kernel's product of a block of adjacency rows times the second layer's input, at `(i, j)`. -/
theorem mmAZ_apply {φ₁ φ₂ : FTy} (l : FVec Ideal S400x10000 φ₁) (r : FVec Ideal S10000x16 φ₂) (i : Fin 400) (j : Fin 16) :
    FloatOps.matmul dot_S400x10000_S10000x16_S400x16_1_0_0_1_n_n none l r (constant (F := Ideal) S400x16 .f32 0x00000000#32) (ix2 i j)
      = ∑ t : Fin 10000, l (ix2 i t) * r (ix2 t j) :=
  matmul_zero_ix2 dot_S400x10000_S10000x16_S400x16_1_0_0_1_n_n rfl rfl
    (fun i q => by
      unfold DotDims.lhsIdx
      rw [dif_neg (show ¬(0 : Fin S400x10000.rank) ∈ dot_S400x10000_S10000x16_S400x16_1_0_0_1_n_n.lhsBatch by decide),
        dif_pos (show (0 : Fin S400x10000.rank) ∈ dot_S400x10000_S10000x16_S400x16_1_0_0_1_n_n.lhsNonContracting by decide)]
      rfl)
    (fun i q => dot_S400x10000_S10000x16_S400x16_1_0_0_1_n_n.lhsIdx_val_of_single rfl i q)
    (fun i q => dot_S400x10000_S10000x16_S400x16_1_0_0_1_n_n.rhsIdx_val_of_single rfl i q)
    (fun i q => by
      unfold DotDims.rhsIdx
      rw [dif_neg (show ¬(1 : Fin S10000x16.rank) ∈ dot_S400x10000_S10000x16_S400x16_1_0_0_1_n_n.rhsBatch by decide),
        dif_pos (show (1 : Fin S10000x16.rank) ∈ dot_S400x10000_S10000x16_S400x16_1_0_0_1_n_n.rhsNonContracting by decide)]
      rfl)
    none l r i j

/-! ## The stored values -/

/-- The first stored value: the features times the first weight matrix. -/
theorem pay1_apply (x : Vec Ideal S10000x128 .f32) (w : Vec Ideal S128x32 .f32) (i : Fin 10000) (k : Fin 32) :
    k0_pay1 (F := Ideal) x w (ix2 i k) = Cert.Gcn.mm x w (ix2 i k) := by
  unfold k0_pay1
  refine (congrFun (shapeCast_self _ _) (ix2 i k)).trans ?_
  refine (mmXW_apply (φ₁ := .f32) (φ₂ := .f32) x w i k).trans ?_
  rfl

/-- One layer's hidden block, as the kernel computes it from a block of adjacency rows, the layer's input and the bias
    row: at `(p, t)` it is max (a · y + b, 0). -/
theorem act32_apply (a : Vec Ideal S400x10000 .f32) (y : Vec Ideal S10000x32 .bf16) (b : Vec Ideal S1x32 .f32)
    (p : Fin 400) (t : Fin 32) :
    maximumf (F := Ideal)
        (addf (matmul (φ₂ := .bf16) dot_S400x10000_S10000x32_S400x32_1_0_0_1_n_n none (truncf .bf16 a bitsLt_bf16_f32) y
            (constant (F := Ideal) S400x32 .f32 0x00000000#32))
          (broadcastTo S400x32 (shapeCast S1x32 b shapeCasts_S1x32_S1x32) broadcasts_S1x32_S400x32))
        (broadcast S400x32 (Scalar.ofBits (F := Ideal) .f32 0x00000000#32)) (ix2 p t)
      = Cert.Gcn.layer a y (fun k => b (ix2 (0 : Fin 1) k)) (ix2 p t) := by
  show max (FloatOps.matmul (φ₂ := .bf16) dot_S400x10000_S10000x32_S400x32_1_0_0_1_n_n none
        (truncf (F := Ideal) .bf16 a bitsLt_bf16_f32) y (constant (F := Ideal) S400x32 .f32 0x00000000#32) (ix2 p t)
      + broadcastTo S400x32 (shapeCast S1x32 b shapeCasts_S1x32_S1x32) broadcasts_S1x32_S400x32 (ix2 p t))
      Cert.Gcn.ZERO = max (Cert.Gcn.mm a y (ix2 p t) + b (ix2 (0 : Fin 1) t)) Cert.Gcn.ZERO
  rw [mmAY_apply (φ₁ := .bf16) (φ₂ := .bf16), broadcastTo_1b_ab_apply, shapeCast_self]
  rfl

/-- The same for the second layer, sixteen columns wide. -/
theorem act16_apply (a : Vec Ideal S400x10000 .f32) (z : Vec Ideal S10000x16 .bf16) (b : Vec Ideal S1x16 .f32)
    (p : Fin 400) (t : Fin 16) :
    maximumf (F := Ideal)
        (addf (matmul (φ₂ := .bf16) dot_S400x10000_S10000x16_S400x16_1_0_0_1_n_n none (truncf .bf16 a bitsLt_bf16_f32) z
            (constant (F := Ideal) S400x16 .f32 0x00000000#32))
          (broadcastTo S400x16 (shapeCast S1x16 b shapeCasts_S1x16_S1x16) broadcasts_S1x16_S400x16))
        (broadcast S400x16 (Scalar.ofBits (F := Ideal) .f32 0x00000000#32)) (ix2 p t)
      = Cert.Gcn.layer a z (fun k => b (ix2 (0 : Fin 1) k)) (ix2 p t) := by
  show max (FloatOps.matmul (φ₂ := .bf16) dot_S400x10000_S10000x16_S400x16_1_0_0_1_n_n none
        (truncf (F := Ideal) .bf16 a bitsLt_bf16_f32) z (constant (F := Ideal) S400x16 .f32 0x00000000#32) (ix2 p t)
      + broadcastTo S400x16 (shapeCast S1x16 b shapeCasts_S1x16_S1x16) broadcasts_S1x16_S400x16 (ix2 p t))
      Cert.Gcn.ZERO = max (Cert.Gcn.mm a z (ix2 p t) + b (ix2 (0 : Fin 1) t)) Cert.Gcn.ZERO
  rw [mmAZ_apply (φ₁ := .bf16) (φ₂ := .bf16), broadcastTo_1b_ab_apply, shapeCast_self]
  rfl

/-- The second stored value: the first layer's hidden block times the second weight matrix. -/
theorem pay2_apply (a : Vec Ideal S400x10000 .f32) (y : Vec Ideal S10000x32 .bf16) (b : Vec Ideal S1x32 .f32)
    (w : Vec Ideal S32x16 .f32) (p : Fin 400) (q : Fin 16) :
    k0_pay2 (F := Ideal) a y b w (ix2 p q)
      = Cert.Gcn.mm (Cert.Gcn.layer a y (fun k => b (ix2 (0 : Fin 1) k))) w (ix2 p q) := by
  unfold k0_pay2
  refine (mmHW_apply (φ₁ := .f32) (φ₂ := .f32) _ w p q).trans ?_
  exact Finset.sum_congr rfl fun t _ => congrArg (· * w (ix2 t q)) (act32_apply a y b p t)

/-- The third stored value is the second in another format: the same at the exact values. -/
theorem pay3_apply (a : Vec Ideal S400x10000 .f32) (y : Vec Ideal S10000x32 .bf16) (b : Vec Ideal S1x32 .f32)
    (w : Vec Ideal S32x16 .f32) (p : Fin 400) (q : Fin 16) :
    k0_pay3 (F := Ideal) a y b w (ix2 p q)
      = Cert.Gcn.mm (Cert.Gcn.layer a y (fun k => b (ix2 (0 : Fin 1) k))) w (ix2 p q) := by
  unfold k0_pay3
  refine (congrFun (shapeCast_self _ _) (ix2 p q)).trans ?_
  exact pay2_apply a y b w p q

/-- The fourth stored value is the second under a leading unit axis. -/
theorem pay4_apply (a : Vec Ideal S400x10000 .f32) (y : Vec Ideal S10000x32 .bf16) (b : Vec Ideal S1x32 .f32)
    (w : Vec Ideal S32x16 .f32) (p : Fin 400) (q : Fin 16) :
    k0_pay4 (F := Ideal) a y b w (ix3 (0 : Fin 1) p q)
      = Cert.Gcn.mm (Cert.Gcn.layer a y (fun k => b (ix2 (0 : Fin 1) k))) w (ix2 p q) := by
  unfold k0_pay4
  refine (shapeCast_ab_1ab_apply _ shapeCasts_S400x16_S1x400x16 (0 : Fin 1) p q).trans ?_
  exact pay2_apply a y b w p q

/-! ## The row-wise log-softmax as the kernel computes it -/

/-- The row maximum, taken along the lanes from minus infinity, recast as a column and laid back across the lanes:
    at `(p, q)` it is the largest entry of row `p`. -/
theorem rowmaxB_apply (g : FVec Ideal S400x16 .f32) (hφ : FKind.Formats .f32)
    (hmax : (0xFF800000#32 : BitVec 32) = FKind.maximumf.neutral .f32 hφ) (p : Fin 400) (q : Fin 16) :
    broadcastTo S400x16
        (shapeCast S400x1 (multiReduction (F := Ideal) .maximumf [1] S400 g 0xFF800000#32 reduces_S400x16_S400 hφ hmax)
          shapeCasts_S400_S400x1) broadcasts_S400x1_S400x16 (ix2 p q)
      = Cert.Gcn.rowmax g p := by
  rw [Cert.LibKeepdims.broadcastTo_a1_ab_apply, Cert.LibKeepdims.shapeCast_a_a1_apply,
    Cert.LibRowMax.multiReduction_max_last_ab]
  rfl

/-- The logarithm of a row sum, taken along the lanes, recast as a column and laid back across the lanes: at `(p, q)`
    it is the logarithm of the sum of row `p`. -/
theorem logsumB_apply (e : FVec Ideal S400x16 .f32) (hφ : FKind.Formats .f32)
    (hadd : (0x00000000#32 : BitVec 32) = FKind.add.neutral .f32 hφ) (p : Fin 400) (q : Fin 16) :
    broadcastTo S400x16
        (log (F := Ideal) (shapeCast S400x1
          (multiReduction (F := Ideal) .add [1] S400 e 0x00000000#32 reduces_S400x16_S400 hφ hadd) shapeCasts_S400_S400x1))
        broadcasts_S400x1_S400x16 (ix2 p q)
      = Ideal.log (∑ k : Fin 16, e (ix2 p k)) := by
  rw [Cert.LibKeepdims.broadcastTo_a1_ab_apply]
  show Ideal.log (shapeCast S400x1
      (multiReduction (F := Ideal) .add [1] S400 e 0x00000000#32 reduces_S400x16_S400 hφ hadd) shapeCasts_S400_S400x1
      (ix2 p (0 : Fin 1))) = _
  rw [Cert.LibKeepdims.shapeCast_a_a1_apply, Cert.LibKeepdims.multiReduction_add_last_ab]

/-- The kernel's log-softmax of a block `g`: subtract the row maximum, subtract the logarithm of the row sum of the
    exponentials, and put a leading unit axis on the result. At `(0, p, q)` it is the row-wise log-softmax of `g` at
    `(p, q)`. -/
theorem lsm_tail_apply (g : FVec Ideal S400x16 .f32) (hφ : FKind.Formats .f32)
    (hmax : (0xFF800000#32 : BitVec 32) = FKind.maximumf.neutral .f32 hφ)
    (hadd : (0x00000000#32 : BitVec 32) = FKind.add.neutral .f32 hφ) (p : Fin 400) (q : Fin 16) :
    shapeCast S1x400x16
        (subf (F := Ideal)
          (subf g (broadcastTo S400x16
            (shapeCast S400x1 (multiReduction (F := Ideal) .maximumf [1] S400 g 0xFF800000#32 reduces_S400x16_S400 hφ hmax)
              shapeCasts_S400_S400x1) broadcasts_S400x1_S400x16))
          (broadcastTo S400x16
            (log (F := Ideal) (shapeCast S400x1
              (multiReduction (F := Ideal) .add [1] S400
                (exp (F := Ideal) (subf g (broadcastTo S400x16
                  (shapeCast S400x1 (multiReduction (F := Ideal) .maximumf [1] S400 g 0xFF800000#32 reduces_S400x16_S400 hφ hmax)
                    shapeCasts_S400_S400x1) broadcasts_S400x1_S400x16)))
                0x00000000#32 reduces_S400x16_S400 hφ hadd) shapeCasts_S400_S400x1))
            broadcasts_S400x1_S400x16))
        shapeCasts_S400x16_S1x400x16 (ix3 (0 : Fin 1) p q)
      = Cert.Gcn.lsm g (ix2 p q) := by
  refine (shapeCast_ab_1ab_apply _ shapeCasts_S400x16_S1x400x16 (0 : Fin 1) p q).trans ?_
  rw [subf_apply, subf_apply, logsumB_apply, rowmaxB_apply]
  refine congrArg (fun s => (g (ix2 p q) - Cert.Gcn.rowmax g p) - Ideal.log s) ?_
  refine Finset.sum_congr rfl fun k _ => ?_
  show Ideal.exp (g (ix2 p k) - _) = _
  rw [rowmaxB_apply]

/-- The last stored value: the row-wise log-softmax of the second layer's block. -/
theorem pay5_apply (a : Vec Ideal S400x10000 .f32) (z : Vec Ideal S10000x16 .bf16) (b : Vec Ideal S1x16 .f32)
    (p : Fin 400) (q : Fin 16) :
    k0_pay5 (F := Ideal) a z b (ix3 (0 : Fin 1) p q)
      = Cert.Gcn.lsm (Cert.Gcn.layer a z (fun k => b (ix2 (0 : Fin 1) k))) (ix2 p q) := by
  have hg : (maximumf (F := Ideal)
        (addf (matmul (φ₂ := .bf16) dot_S400x10000_S10000x16_S400x16_1_0_0_1_n_n none (truncf .bf16 a bitsLt_bf16_f32)
            z (constant (F := Ideal) S400x16 .f32 0x00000000#32))
          (broadcastTo S400x16 (shapeCast S1x16 b shapeCasts_S1x16_S1x16) broadcasts_S1x16_S400x16))
        (broadcast S400x16 (Scalar.ofBits (F := Ideal) .f32 0x00000000#32)) : FVec Ideal S400x16 .f32)
      = Cert.Gcn.layer a z (fun k => b (ix2 (0 : Fin 1) k)) := by
    funext i
    obtain ⟨r, c, rfl⟩ : ∃ (r : Fin 400) (c : Fin 16), i = ix2 r c := ⟨i 0, i 1, eq_ix2 i⟩
    exact act16_apply a z b r c
  unfold k0_pay5
  refine (lsm_tail_apply _ (.inl rfl) rfl rfl p q).trans ?_
  exact congrArg (fun g => Cert.Gcn.lsm g (ix2 p q)) hg

end Cert.Gcn.Pay

end
-- ==== Proof.KI.Bridge.lean ====
/-
  The kernel's named contents are the specification, at the exact values.
  With X the features, A the adjacency matrix, W1, W2 the weight matrices and B1, B2 the bias vectors the program was
  launched with:
  • the first scratch's contents Yv are X · W1 (`Yv_eq`);
  • the second scratch's contents Zv are the hidden features times W2, max (A · (X · W1) + B1, 0) · W2 (`Zv_eq`): row r
    is row r mod 400 of the block the point r / 400 computes from rows 400 · (r / 400), … of A;
  • what a point t of the second phase leaves in the output block is rows 400 · (t mod 25), … of the network's result
    (`out6_eq`): the layer and the log-softmax act row by row, so a block of rows of the result is the result of the
    block of rows of A.
-/
import proofs.«128424_g90108413870386_cont_sun_c4_37_9_alg».proof.Proof.KI.Frame
import proofs.«128424_g90108413870386_cont_sun_c4_37_9_alg».proof.Proof.KI.Blocks
import proofs.«128424_g90108413870386_cont_sun_c4_37_9_alg».proof.Proof.Payloads
import proofs.«128424_g90108413870386_cont_sun_c4_37_9_alg».proof.Proof.Spec
import Idealize.ShloMosaic.Lib.ValueIdx

set_option maxRecDepth 16384

noncomputable section

namespace Cert.KernelIdeal.Bridge

open Cert.KernelIdeal Cert.KernelIdeal.Gen Cert.KernelIdeal.Hand Cert.KernelIdeal.Blocks Cert.Gcn Cert.Gcn.Pay
open Idealize.ShloMosaic Idealize.ShloMosaic.ValueIdx Idealize.ShloMosaic.TcCoe Idealize.SL.Sem

variable (m : (ℓ : Loc nD τ sig) → Buf (Elt Ideal) ℓ) (c : Dev nD)

/-! ## The arrays the program was launched with, as matrices and vectors -/

/-- The features. -/
abbrev inX : Mat 10000 128 := m ((c.tc : Thread nD τ).loc main_arg0)
/-- The adjacency matrix. -/
abbrev inA : Mat 10000 10000 := m ((c.tc : Thread nD τ).loc main_arg1)
/-- The first weight matrix. -/
abbrev inW1 : Mat 128 32 := m ((c.tc : Thread nD τ).loc main_arg2)
/-- The first bias vector. -/
abbrev inB1 : Fin 32 → EReal := fun k => m ((c.tc : Thread nD τ).loc main_arg3) (ix1 k)
/-- The second weight matrix. -/
abbrev inW2 : Mat 32 16 := m ((c.tc : Thread nD τ).loc main_arg4)
/-- The second bias vector. -/
abbrev inB2 : Fin 16 → EReal := fun k => m ((c.tc : Thread nD τ).loc main_arg5) (ix1 k)

/-! ## The windows' blocks as whole functions -/

theorem iblk0_eq (t : Fin cfg0.N) : (iblk m c 0 t : Mat 10000 128) = inX m c := by
  funext y
  obtain ⟨i, j, rfl⟩ : ∃ (i : Fin 10000) (j : Fin 128), y = ix2 i j := ⟨y 0, y 1, eq_ix2 y⟩
  exact blk0 m c t i j

theorem iblk2_eq (t : Fin cfg0.N) : (iblk m c 2 t : Mat 128 32) = inW1 m c := by
  funext y
  obtain ⟨i, j, rfl⟩ : ∃ (i : Fin 128) (j : Fin 32), y = ix2 i j := ⟨y 0, y 1, eq_ix2 y⟩
  exact blk2 m c t i j

theorem iblk4_eq (t : Fin cfg0.N) : (iblk m c 4 t : Mat 32 16) = inW2 m c := by
  funext y
  obtain ⟨i, j, rfl⟩ : ∃ (i : Fin 32) (j : Fin 16), y = ix2 i j := ⟨y 0, y 1, eq_ix2 y⟩
  exact blk4 m c t i j

/-- The row block of point `t` ends inside the adjacency matrix. -/
theorem rows_le (t : Fin cfg0.N) : 400 * (t.val % 25) + 400 ≤ 10000 := by
  have := Nat.mod_lt t.val (by decide : 0 < 25)
  omega

/-- Window 1's block at point `t` is the block of 400 rows of the adjacency matrix from row 400 · (t mod 25). -/
theorem iblk1_eq (t : Fin cfg0.N) :
    (iblk m c 1 t : Mat 400 10000) = rows 400 (400 * (t.val % 25)) (rows_le t) (inA m c) := by
  funext y
  obtain ⟨p, q, rfl⟩ : ∃ (p : Fin 400) (q : Fin 10000), y = ix2 p q := ⟨y 0, y 1, eq_ix2 y⟩
  exact blk1 m c t p q

theorem bias3_eq (t : Fin cfg0.N) : (fun k : Fin 32 => iblk m c 3 t (ix2 (0 : Fin 1) k)) = inB1 m c :=
  funext fun k => blk3 m c t k

theorem bias5_eq (t : Fin cfg0.N) : (fun k : Fin 16 => iblk m c 5 t (ix2 (0 : Fin 1) k)) = inB2 m c :=
  funext fun k => blk5 m c t k

/-! ## The first scratch -/

/-- The first scratch holds the features times the first weight matrix. -/
theorem Yv_eq : (Yv m c : Mat 10000 32) = mm (inX m c) (inW1 m c) := by
  funext y
  obtain ⟨i, k, rfl⟩ : ∃ (i : Fin 10000) (k : Fin 32), y = ix2 i k := ⟨y 0, y 1, eq_ix2 y⟩
  unfold Yv
  refine (pay1_apply _ _ i k).trans ?_
  rw [iblk0_eq, iblk2_eq]

/-! ## The second scratch -/

/-- The hidden features of a block of rows of the adjacency matrix are the block of rows of the hidden features. -/
theorem hidden_rows {n f c' : ℕ} (a off : ℕ) (h : off + a ≤ n) (adj : Mat n n) (t : Mat n f) (bias : Fin f → EReal)
    (w : Mat f c') (p : Fin a) (q : Fin c') :
    mm (layer (rows a off h adj) t bias) w (ix2 p q)
      = mm (layer adj t bias) w (ix2 ⟨off + p.val, by have := p.isLt; omega⟩ q) := rfl

/-- The second scratch holds the hidden features times the second weight matrix. -/
theorem Zv_eq : (Zv m c : Mat 10000 16) = hidden (inX m c) (inA m c) (inW1 m c) (inB1 m c) (inW2 m c) := by
  funext y
  obtain ⟨r, q, rfl⟩ : ∃ (r : Fin 10000) (q : Fin 16), y = ix2 r q := ⟨y 0, y 1, eq_ix2 y⟩
  have hr : r.val < 10000 := r.isLt
  have hn : r.val / 400 < 50 := by omega
  have hp : r.val % 400 < 400 := Nat.mod_lt _ (by decide)
  have ht : (pt (r.val / 400) hn).val < 25 := by show r.val / 400 < 25; omega
  refine (Zv_at m c (pt (r.val / 400) hn) ht (ix2 r q) ⟨r.val % 400, hp⟩ q
    (by show r.val = 400 * (r.val / 400) + r.val % 400; omega) rfl).trans ?_
  refine (pay3_apply _ _ _ _ ⟨r.val % 400, hp⟩ q).trans ?_
  rw [iblk1_eq, Yv_eq, bias3_eq, iblk4_eq]
  refine (hidden_rows 400 _ _ _ _ _ _ ⟨r.val % 400, hp⟩ q).trans ?_
  refine congrArg (fun i : Fin 10000 => hidden (inX m c) (inA m c) (inW1 m c) (inB1 m c) (inW2 m c) (ix2 i q)) (Fin.ext ?_)
  show 400 * ((r.val / 400) % 25) + r.val % 400 = r.val
  omega

/-! ## The output block in the second phase -/

/-- What a point `t` of the second phase leaves in the output block: rows 400 · (t mod 25), … of the network's result. -/
theorem out6_eq (t : Fin cfg0.N) (ht : 25 ≤ t.val) (p : Fin 400) (q : Fin 16) :
    out6 m c t (ix3 (0 : Fin 1) p q)
      = out (inX m c) (inA m c) (inW1 m c) (inB1 m c) (inW2 m c) (inB2 m c)
          (ix2 (⟨400 * (t.val % 25) + p.val, row_lt t p⟩ : Fin 10000) q) := by
  unfold out6
  rw [if_neg (by omega)]
  refine (pay5_apply _ _ _ p q).trans ?_
  rw [iblk1_eq, Zv_eq, bias5_eq]
  exact lsm_layer_rows 400 _ (rows_le t) _ _ _ p q

end Cert.KernelIdeal.Bridge

end
-- ==== Proof.RefIsSpec.lean ====
/-
  The reference program computes the specification.
  Read one operation at a time at the ideal values, the reference is: two matrix products and a bias row added, the
  maximum with zero (the first layer); a product with the second weight matrix, then the same again (the second
  layer); and, row by row, the log-softmax that first subtracts the row's largest entry. Each of these is the
  function of the same name in the specification:
    a matrix product read at (i, j) is the sum over k of the left operand at (i, k) times the right at (k, j);
    a bias vector recast as a row and broadcast down the rows is, at (i, j), the vector at j;
    the maximum with a broadcast zero word is the maximum with that word;
    the row maximum, a reduction along the second axis from minus infinity, is the fold of max over the row, and
      the further maximum with minus infinity the reference takes changes nothing, a fold of max from b being at
      least b;
    the row sum of the exponentials starts from the zero word, which is the number zero.
  The last theorem restates the reference's run with the specification as its result.
-/
import proofs.«128424_g90108413870386_cont_sun_c4_37_9_alg».proof.Proof.RefReadP
import proofs.«128424_g90108413870386_cont_sun_c4_37_9_alg».proof.Proof.Spec
import Idealize.ShloMosaic.Lib.ValueIdx
import Idealize.ShloMosaic.PureOps.Ideal
import Idealize.ShloMosaic.PureOps.Ideal.Laws
import Idealize.ShloMosaic.PureOps.Reduce

noncomputable section

namespace Cert.Gcn.Ref

open Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo

/-! ## The first layer -/

/-- The features times the first weight matrix. -/
theorem v0_eq (x0 : (⟨S10000x128, .f32⟩ : BufTy).Contents (Elt Ideal)) (x2 : (⟨S128x32, .f32⟩ : BufTy).Contents (Elt Ideal)) :
    val_main_v0 (F := Ideal) x0 x2 = mm x0 x2 := by
  funext i
  refine (val_main_v0_apply x0 x2 i).trans ?_
  show _ = ∑ k : Fin 128, x0 (ix2 (i 0) k) * x2 (ix2 k (i 1))
  exact Finset.sum_congr rfl fun k _ => congrArg₂ (· * ·) (congrArg x0 (funext fun a => by match a with | ⟨0, _⟩ => rfl | ⟨1, _⟩ => rfl)) (congrArg x2 (funext fun a => by match a with | ⟨0, _⟩ => rfl | ⟨1, _⟩ => rfl))

/-- The adjacency matrix times that product. -/
theorem v1_eq (x0 : (⟨S10000x128, .f32⟩ : BufTy).Contents (Elt Ideal)) (x1 : (⟨S10000x10000, .f32⟩ : BufTy).Contents (Elt Ideal)) (x2 : (⟨S128x32, .f32⟩ : BufTy).Contents (Elt Ideal)) :
    val_main_v1 (F := Ideal) x0 x1 x2 = mm x1 (mm x0 x2) := by
  funext i
  refine (val_main_v1_apply x0 x1 x2 i).trans ?_
  rw [v0_eq x0 x2]
  show _ = ∑ k : Fin 10000, x1 (ix2 (i 0) k) * mm x0 x2 (ix2 k (i 1))
  exact Finset.sum_congr rfl fun k _ => congrArg₂ (· * ·) (congrArg x1 (funext fun a => by match a with | ⟨0, _⟩ => rfl | ⟨1, _⟩ => rfl)) (congrArg (mm x0 x2) (funext fun a => by match a with | ⟨0, _⟩ => rfl | ⟨1, _⟩ => rfl))

/-- The first bias, recast as a row and broadcast down the rows, is at (i, j) the bias at j. -/
theorem v3_apply (x3 : (⟨S32, .f32⟩ : BufTy).Contents (Elt Ideal)) (i : S10000x32.Idx) :
    val_main_v3 (F := Ideal) x3 i = x3 (ix1 (i 1)) :=
  (val_main_v3_apply x3 i).trans ((val_main_v2_apply x3 _).trans (congrArg x3 (funext fun a => by match a with | ⟨0, _⟩ => rfl)))

/-- The first layer: the maximum of the product plus the bias with the zero word. -/
theorem v5_eq (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32, .f32⟩ : BufTy).Contents (Elt Ideal)) :
    val_main_v5 (F := Ideal) x0 x1 x2 x3 = layer x1 (mm x0 x2) (fun k => x3 (ix1 k)) := by
  funext i
  refine (val_main_v5_apply x0 x1 x2 x3 i).trans ?_
  exact congrArg₂ (max : EReal → EReal → EReal)
    ((val_main_v4_apply x0 x1 x2 x3 i).trans
      (congrArg₂ (fun a b : EReal => a + b) (congrFun (v1_eq x0 x1 x2) i) (v3_apply x3 i)))
    ((val_main_call0_v0_apply i).trans rfl)

/-! ## The second layer -/

/-- The first layer's result times the second weight matrix. -/
theorem v6_eq (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32, .f32⟩ : BufTy).Contents (Elt Ideal)) (x4 : (⟨S32x16, .f32⟩ : BufTy).Contents (Elt Ideal)) :
    val_main_v6 (F := Ideal) x0 x1 x2 x3 x4 = hidden x0 x1 x2 (fun k => x3 (ix1 k)) x4 := by
  funext i
  refine (val_main_v6_apply x0 x1 x2 x3 x4 i).trans ?_
  rw [v5_eq x0 x1 x2 x3]
  show _ = ∑ k : Fin 32, layer x1 (mm x0 x2) (fun k => x3 (ix1 k)) (ix2 (i 0) k) * x4 (ix2 k (i 1))
  exact Finset.sum_congr rfl fun k _ => congrArg₂ (· * ·)
    (congrArg (layer x1 (mm x0 x2) (fun k => x3 (ix1 k))) (funext fun a => by match a with | ⟨0, _⟩ => rfl | ⟨1, _⟩ => rfl)) (congrArg x4 (funext fun a => by match a with | ⟨0, _⟩ => rfl | ⟨1, _⟩ => rfl))

/-- The adjacency matrix times that product. -/
theorem v7_eq (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32, .f32⟩ : BufTy).Contents (Elt Ideal)) (x4 : (⟨S32x16, .f32⟩ : BufTy).Contents (Elt Ideal)) :
    val_main_v7 (F := Ideal) x0 x1 x2 x3 x4 = mm x1 (hidden x0 x1 x2 (fun k => x3 (ix1 k)) x4) := by
  funext i
  refine (val_main_v7_apply x0 x1 x2 x3 x4 i).trans ?_
  rw [v6_eq x0 x1 x2 x3 x4]
  show _ = ∑ k : Fin 10000, x1 (ix2 (i 0) k) * hidden x0 x1 x2 (fun k => x3 (ix1 k)) x4 (ix2 k (i 1))
  exact Finset.sum_congr rfl fun k _ => congrArg₂ (· * ·) (congrArg x1 (funext fun a => by match a with | ⟨0, _⟩ => rfl | ⟨1, _⟩ => rfl))
    (congrArg (hidden x0 x1 x2 (fun k => x3 (ix1 k)) x4) (funext fun a => by match a with | ⟨0, _⟩ => rfl | ⟨1, _⟩ => rfl))

/-- The second bias, recast as a row and broadcast down the rows, is at (i, j) the bias at j. -/
theorem v9_apply (x5 : (⟨S16, .f32⟩ : BufTy).Contents (Elt Ideal)) (i : S10000x16.Idx) :
    val_main_v9 (F := Ideal) x5 i = x5 (ix1 (i 1)) :=
  (val_main_v9_apply x5 i).trans ((val_main_v8_apply x5 _).trans (congrArg x5 (funext fun a => by match a with | ⟨0, _⟩ => rfl)))

/-- The second layer. -/
theorem v11_eq (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal)) :
    val_main_v11 (F := Ideal) x0 x1 x2 x3 x4 x5
      = layer x1 (hidden x0 x1 x2 (fun k => x3 (ix1 k)) x4) (fun k => x5 (ix1 k)) := by
  funext i
  refine (val_main_v11_apply x0 x1 x2 x3 x4 x5 i).trans ?_
  exact congrArg₂ (max : EReal → EReal → EReal)
    ((val_main_v10_apply x0 x1 x2 x3 x4 x5 i).trans
      (congrArg₂ (fun a b : EReal => a + b) (congrFun (v7_eq x0 x1 x2 x3 x4) i) (v9_apply x5 i)))
    ((val_main_call1_v0_apply i).trans rfl)

/-! ## The log-softmax of the second layer's result

  The second layer's result stays the term the reference names; only its rows are read. -/

/-- The two shapes of the row reductions: the second axis of a [10000, 16] array is dropped. -/
theorem red16 : S10000x16.Reduces [1] S10000 := by decide

/-- A fold of max from minus infinity over a row is at least minus infinity. -/
theorem le_rowmax {a c : ℕ} (g : Mat a c) (i : Fin a) : NINF ≤ rowmax g i :=
  (Finset.le_fold_max _).mpr (Or.inl le_rfl)

/-- The reference's row maximum — a reduction along the second axis from the minus infinity word — is, at row j,
    the fold of max from minus infinity over that row's entries. -/
theorem call2_v0_apply (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal)) (j : S10000.Idx) :
    val_main_call2_v0 (F := Ideal) x0 x1 x2 x3 x4 x5 j = rowmax (val_main_v11 (F := Ideal) x0 x1 x2 x3 x4 x5) (j 0) := by
  unfold val_main_call2_v0
  generalize val_main_v11 (F := Ideal) x0 x1 x2 x3 x4 x5 = g
  refine (Host.reduce_eq_fold_single (FloatOps.maximumf (F := Ideal) (φ := .f32)) g (val_main_call2_cst (F := Ideal))
    reducesTo_S10000x16_S10000_d1 red16 h_S_ j).trans ?_
  show (Finset.univ : Finset (Fin 16)).fold (max : EReal → EReal → EReal) NINF (g ∘ red16.lift j)
    = (Finset.univ : Finset (Fin 16)).fold (max : EReal → EReal → EReal) NINF (fun k => g (ix2 (j 0) k))
  refine congrArg (Finset.fold (max : EReal → EReal → EReal) NINF · Finset.univ) ?_
  exact funext fun k => congrArg g (funext fun a => Fin.ext (by match a with | ⟨0, _⟩ => rfl | ⟨1, _⟩ => rfl))

/-- The maximum of the minus infinity word with the row maximum is the row maximum. -/
theorem call2_v2_apply (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal)) (j : S10000.Idx) :
    val_main_call2_v2 (F := Ideal) x0 x1 x2 x3 x4 x5 j = rowmax (val_main_v11 (F := Ideal) x0 x1 x2 x3 x4 x5) (j 0) := by
  refine (val_main_call2_v2_apply x0 x1 x2 x3 x4 x5 j).trans ?_
  rw [call2_v0_apply x0 x1 x2 x3 x4 x5 j, val_main_call2_v1_apply j]
  exact max_eq_right (le_rowmax _ _)

/-- Recast as a column and broadcast along the rows, the row maxima are at (i, j) the maximum of row i. -/
theorem call2_v4_apply (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal)) (i : S10000x16.Idx) :
    val_main_call2_v4 (F := Ideal) x0 x1 x2 x3 x4 x5 i = rowmax (val_main_v11 (F := Ideal) x0 x1 x2 x3 x4 x5) (i 0) :=
  (val_main_call2_v4_apply x0 x1 x2 x3 x4 x5 i).trans
    ((val_main_call2_v3_apply x0 x1 x2 x3 x4 x5 _).trans (call2_v2_apply x0 x1 x2 x3 x4 x5 _))

/-- The entries less their row's maximum. -/
theorem call2_v5_apply (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal)) (i : S10000x16.Idx) :
    val_main_call2_v5 (F := Ideal) x0 x1 x2 x3 x4 x5 i = (val_main_v11 (F := Ideal) x0 x1 x2 x3 x4 x5) i - rowmax (val_main_v11 (F := Ideal) x0 x1 x2 x3 x4 x5) (i 0) :=
  (val_main_call2_v5_apply x0 x1 x2 x3 x4 x5 i).trans
    (congrArg (fun t : EReal => (val_main_v11 (F := Ideal) x0 x1 x2 x3 x4 x5) i - t) (call2_v4_apply x0 x1 x2 x3 x4 x5 i))

/-- The row sum of the exponentials: it starts from the zero word, the number zero. -/
theorem call2_v7_apply (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal)) (j : S10000.Idx) :
    val_main_call2_v7 (F := Ideal) x0 x1 x2 x3 x4 x5 j
      = ∑ k : Fin 16, Ideal.exp ((val_main_v11 (F := Ideal) x0 x1 x2 x3 x4 x5) (ix2 (j 0) k) - rowmax (val_main_v11 (F := Ideal) x0 x1 x2 x3 x4 x5) (j 0)) := by
  refine (val_main_call2_v7_apply x0 x1 x2 x3 x4 x5 j).trans ?_
  rw [show val_main_call2_cst_1 (F := Ideal) (Shape.Idx.first h_S_) = (0 : EReal) from Ideal.ofBits_zero_f32, zero_add]
  refine Finset.sum_congr rfl fun k _ => ?_
  refine (val_main_call2_v6_apply x0 x1 x2 x3 x4 x5 _).trans (congrArg Ideal.exp ((call2_v5_apply x0 x1 x2 x3 x4 x5 _).trans ?_))
  exact congrArg (fun t : EReal => t - rowmax (val_main_v11 (F := Ideal) x0 x1 x2 x3 x4 x5) (j 0)) (congrArg (val_main_v11 (F := Ideal) x0 x1 x2 x3 x4 x5) (funext fun a => by match a with | ⟨0, _⟩ => rfl | ⟨1, _⟩ => rfl))

/-- The logarithm of the row sum, recast as a column and broadcast along the rows. -/
theorem call2_v10_apply (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal)) (i : S10000x16.Idx) :
    val_main_call2_v10 (F := Ideal) x0 x1 x2 x3 x4 x5 i
      = Ideal.log (∑ k : Fin 16, Ideal.exp ((val_main_v11 (F := Ideal) x0 x1 x2 x3 x4 x5) (ix2 (i 0) k) - rowmax (val_main_v11 (F := Ideal) x0 x1 x2 x3 x4 x5) (i 0))) :=
  (val_main_call2_v10_apply x0 x1 x2 x3 x4 x5 i).trans ((val_main_call2_v9_apply x0 x1 x2 x3 x4 x5 _).trans
    (congrArg Ideal.log ((val_main_call2_v8_apply x0 x1 x2 x3 x4 x5 _).trans (call2_v7_apply x0 x1 x2 x3 x4 x5 _))))

/-- The reference's result is the row-wise log-softmax of the second layer's result. -/
theorem v12_eq_lsm (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal)) :
    val_main_v12 (F := Ideal) x0 x1 x2 x3 x4 x5 = lsm (val_main_v11 (F := Ideal) x0 x1 x2 x3 x4 x5) := by
  funext i
  refine (val_main_v12_apply x0 x1 x2 x3 x4 x5 i).trans ?_
  exact congrArg₂ (fun a b : EReal => a - b) (call2_v5_apply x0 x1 x2 x3 x4 x5 i) (call2_v10_apply x0 x1 x2 x3 x4 x5 i)

/-! ## The reference is the specification -/

/-- The reference's result, as a function of the six argument arrays, is the network's result. -/
theorem ref_value (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal)) :
    Cert.ReferenceIdeal.ReadP.val_main_v12 (F := Ideal) x0 x1 x2 x3 x4 x5
      = Cert.Gcn.out x0 x1 x2 (fun k => x3 (ix1 k)) x4 (fun k => x5 (ix1 k)) :=
  (v12_eq_lsm x0 x1 x2 x3 x4 x5).trans (congrArg lsm (v11_eq x0 x1 x2 x3 x4 x5))

/-- Every weakly fair execution of the reference's @main ends with the network's result of the launch's argument
    arrays in the result buffer, and the six arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread nD τ).loc main_v12)
          = Cert.Gcn.out (m ((c.tc : Thread nD τ).loc main_arg0)) (m ((c.tc : Thread nD τ).loc main_arg1))
              (m ((c.tc : Thread nD τ).loc main_arg2)) (fun k => m ((c.tc : Thread nD τ).loc main_arg3) (ix1 k))
              (m ((c.tc : Thread nD τ).loc main_arg4)) (fun k => m ((c.tc : Thread nD τ).loc main_arg5) (ix1 k))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run Cert.ReferenceIdeal.defs _ _).mono
    (fun _ h c => ⟨((h c).1).trans ((val_main_v12_eq m c).trans (ref_value _ _ _ _ _ _)), (h c).2⟩)
    (Cert.ReferenceIdeal.ValueP.run m ρ)

end Cert.Gcn.Ref

end
-- ==== Proof.KI.Result.lean ====
/-
  The two idealized programs compute one function. At the exact values the kernel's result array holds, at row i and
  column q, what point 25 + i / 400 leaves in its output block at row i % 400 — the log-softmax rows computed from the row
  block of the adjacency matrix and the whole z —, and that is the specification's entry (i, q); the reference's result is
  the specification by its own run. So from memories agreeing on the six arguments both runs end at the same array.
-/
import proofs.«128424_g90108413870386_cont_sun_c4_37_9_alg».proof.Proof.KI.Value
import proofs.«128424_g90108413870386_cont_sun_c4_37_9_alg».proof.Proof.KI.Bridge
import proofs.«128424_g90108413870386_cont_sun_c4_37_9_alg».proof.Proof.RefIsSpec
import proofs.«128424_g90108413870386_cont_sun_c4_37_9_alg».proof.Defs
import proofs.«128424_g90108413870386_cont_sun_c4_37_9_alg».proof.Proof.Gen.Pre_finite_inputs

set_option maxRecDepth 16384

noncomputable section

namespace Cert.Proof.Gcn

open Idealize.ShloMosaic Idealize.ShloMosaic.TcCoe Idealize.SL.Sem Idealize.ShloMosaic.ValueIdx
open Cert.KernelIdeal Cert.KernelIdeal.Gen Cert.KernelIdeal.Hand Cert.KernelIdeal.Bridge Cert.KernelIdeal.Blocks

/-- The kernel's result array, entry by entry, is the specification of the argument arrays. -/
theorem result_eq (m : (ℓ : Loc nD τ sig) → Buf (Elt Ideal) ℓ) (c : Dev nD) :
    (fun j : S10000x16.Idx => Gout m c (ix3 (1 : Fin 2) (⟨(j 0).val, (j 0).isLt⟩ : Fin 10000) (⟨(j 1).val, (j 1).isLt⟩ : Fin 16)))
      = Cert.Gcn.out (inX m c) (inA m c) (inW1 m c) (inB1 m c) (inW2 m c) (inB2 m c) := by
  funext j
  have hj : (j 0).val < 10000 := (j 0).isLt
  have hlt : 25 * 1 + (j 0).val / 400 < 50 := by omega
  have e : Gout m c (ix3 (1 : Fin 2) (⟨(j 0).val, (j 0).isLt⟩ : Fin 10000) (⟨(j 1).val, (j 1).isLt⟩ : Fin 16))
      = out6 m c (pt (25 * 1 + (j 0).val / 400) hlt) (ix3 (0 : Fin 1) (⟨(j 0).val % 400, Nat.mod_lt _ (by norm_num)⟩ : Fin 400) (⟨(j 1).val, (j 1).isLt⟩ : Fin 16)) := rfl
  rw [e, out6_eq m c (pt (25 * 1 + (j 0).val / 400) hlt) (by show 25 ≤ 25 * 1 + (j 0).val / 400; omega)]
  congr 1
  funext a
  apply Fin.ext
  match a with
  | ⟨0, _⟩ => show 400 * ((25 * 1 + (j 0).val / 400) % 25) + (j 0).val % 400 = (j 0).val; omega
  | ⟨1, _⟩ => rfl

/-- The idealized kernel's run with its result named by the specification. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = Cert.Gcn.out (inX m c) (inA m c) (inW1 m c) (inB1 m c) (inW2 m c) (inB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m c), (h c).2⟩) (run_value m ρ)

/-- From memories agreeing on the arguments, both idealized programs end at the specification of those arguments. -/
theorem algebraic : Cert.algebraic_KernelIdeal_ReferenceIdeal := by
  intro m ρ m' ρ' _ hagree
  refine ⟨fun c => Cert.Gcn.out (inX m c) (inA m c) (inW1 m c) (inB1 m c) (inW2 m c) (inB2 m c), kernel_run m ρ, ?_⟩
  refine (θ_run Cert.ReferenceIdeal.defs _ _).mono (fun _ h c => ⟨(h c).1.trans ?_, (h c).2⟩) (Cert.Gcn.Ref.ref_run m' ρ')
  rw [(hagree c).1, (hagree c).2.1, (hagree c).2.2.1, (hagree c).2.2.2.1, (hagree c).2.2.2.2.1, (hagree c).2.2.2.2.2]

end Cert.Proof.Gcn

end
-- ==== Proof.lean ====
/-
  The proof of the certificate's claim: three frames, the (empty) idealization ledger, and the equality of the two
  idealized programs' results.
  The kernel is a fused two-layer graph convolution on a 2 × 25 grid: phase 0 computes y = x·W1 once and, row block by row
  block, z = max(adj·y + b1, 0)·W2 into a scratch buffer; phase 1 computes, row block by row block,
  log_softmax(max(adj·z + b2, 0)). Its frame is proved by induction over the 50 grid points with the scratch contents
  named (Proof/KB for the word-level program, Proof/KI for the idealized one: the same text at two instances). The
  reference's frame is its run with the result dropped. The two results are equal because both are the specification
  Cert.Gcn.out of the argument arrays (Proof/Spec, Proof/RefIsSpec, Proof/KI/Result): the same sums in the same
  association, so no finiteness of the inputs is used.
-/
import proofs.«128424_g90108413870386_cont_sun_c4_37_9_alg».proof.Defs
import proofs.«128424_g90108413870386_cont_sun_c4_37_9_alg».proof.Proof.Gen.Kernel
import proofs.«128424_g90108413870386_cont_sun_c4_37_9_alg».proof.Proof.Gen.KernelIdeal
import proofs.«128424_g90108413870386_cont_sun_c4_37_9_alg».proof.Proof.Gen.ReferenceIdeal
import proofs.«128424_g90108413870386_cont_sun_c4_37_9_alg».proof.Proof.Gen.Pre_finite_inputs
import proofs.«128424_g90108413870386_cont_sun_c4_37_9_alg».proof.Proof.KB.Frame
import proofs.«128424_g90108413870386_cont_sun_c4_37_9_alg».proof.Proof.KI.Frame
import proofs.«128424_g90108413870386_cont_sun_c4_37_9_alg».proof.Proof.KI.Result
import proofs.«128424_g90108413870386_cont_sun_c4_37_9_alg».proof.Proof.RefRunP
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Gcn.algebraic⟩

end Cert.Proof

end
